-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v157) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000 : Shape := ⟨1, ![2000000]⟩
abbrev S100000x128 : Shape := ⟨2, ![100000, 128]⟩
abbrev S20000x128 : Shape := ⟨2, ![20000, 128]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S2000000 : S_.BroadcastsInDim S2000000 (![] : Fin 0 → Fin S2000000.rank)
  reducesTo_S2000000_S_d0 : S2000000.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S20000x128 : S_.BroadcastsInDim S20000x128 (![] : Fin 0 → Fin S20000x128.rank)
  reducesTo_S20000x128_S_d0_1 : S20000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part5 {F : FTy → Type} [FloatOps F] (main_arg20 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  main_v93

def fn_part4 {F : FTy → Type} [FloatOps F] (main_arg16 : FVec F S128 .f32) (main_arg17 : FVec F S128x64 .f32) (main_arg18 : FVec F S64 .f32) (main_arg19 : FVec F S64 .f32) (main_arg20 : FVec F S64 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x64 .f32 := Host.absf main_arg17
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S256x128 .f32) (main_arg14 : FVec F S128 .f32) (main_arg15 : FVec F S128 .f32) (main_arg16 : FVec F S128 .f32) (main_arg17 : FVec F S128x64 .f32) (main_arg18 : FVec F S64 .f32) (main_arg19 : FVec F S64 .f32) (main_arg20 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S256x128 .f32 := Host.absf main_arg13
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_v63 main_v67

def fn_part2 {F : FTy → Type} [FloatOps F] (main_arg9 : FVec F S128x64 .f32) (main_arg10 : FVec F S64 .f32) (main_arg11 : FVec F S64 .f32) (main_arg12 : FVec F S64 .f32) (main_arg13 : FVec F S256x128 .f32) (main_arg14 : FVec F S128 .f32) (main_arg15 : FVec F S128 .f32) (main_arg16 : FVec F S128 .f32) (main_arg17 : FVec F S128x64 .f32) (main_arg18 : FVec F S64 .f32) (main_arg19 : FVec F S64 .f32) (main_arg20 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_v48 main_v49 main_v50

def fn_part1 {F : FTy → Type} [FloatOps F] (main_arg6 : FVec F S128 .f32) (main_arg7 : FVec F S128 .f32) (main_arg8 : FVec F S128 .f32) (main_arg9 : FVec F S128x64 .f32) (main_arg10 : FVec F S64 .f32) (main_arg11 : FVec F S64 .f32) (main_arg12 : FVec F S64 .f32) (main_arg13 : FVec F S256x128 .f32) (main_arg14 : FVec F S128 .f32) (main_arg15 : FVec F S128 .f32) (main_arg16 : FVec F S128 .f32) (main_arg17 : FVec F S128x64 .f32) (main_arg18 : FVec F S64 .f32) (main_arg19 : FVec F S64 .f32) (main_arg20 : FVec F S64 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : IVec S2000000 32) (main_arg1 : IVec S2000000 32) (main_arg2 : FVec F S2000000 .f32) (main_arg3 : FVec F S100000x128 .f32) (main_arg4 : FVec F S20000x128 .f32) (main_arg5 : FVec F S256x128 .f32) (main_arg6 : FVec F S128 .f32) (main_arg7 : FVec F S128 .f32) (main_arg8 : FVec F S128 .f32) (main_arg9 : FVec F S128x64 .f32) (main_arg10 : FVec F S64 .f32) (main_arg11 : FVec F S64 .f32) (main_arg12 : FVec F S64 .f32) (main_arg13 : FVec F S256x128 .f32) (main_arg14 : FVec F S128 .f32) (main_arg15 : FVec F S128 .f32) (main_arg16 : FVec F S128 .f32) (main_arg17 : FVec F S128x64 .f32) (main_arg18 : FVec F S64 .f32) (main_arg19 : FVec F S64 .f32) (main_arg20 : FVec F S64 .f32) : IVec S_ 1 :=
  let main_v0 : FVec F S2000000 .f32 := Host.absf main_arg2
  let main_cst : FVec F S_ .f32 := constant S_ .f32 0x7F800000#32
  let main_v1 : FVec F S2000000 .f32 := broadcastInDim S2000000 ![] bcast_S_S2000000 main_cst
  let main_v2 : IVec S2000000 1 := cmpf .olt main_v0 main_v1
  let main_c : IVec S_ 1 := constantI S_ 1 1#1
  let main_v3 : IVec S_ 1 := (fun x v => Host.reduce IntOp.andi x v reducesTo_S2000000_S_d0 h_S_) main_v2 main_c
  let main_v4 : FVec F S100000x128 .f32 := Host.absf main_arg3
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S20000x128 .f32 := Host.absf main_arg4
  let main_cst_2 : FVec F S_ .f32 := constant S_ .f32 0x7F800000#32
  let main_v10 : FVec F S20000x128 .f32 := broadcastInDim S20000x128 ![] bcast_S_S20000x128 main_cst_2
  let main_v11 : IVec S20000x128 1 := cmpf .olt main_v9 main_v10
  let main_c_3 : IVec S_ 1 := constantI S_ 1 1#1
  let main_v12 : IVec S_ 1 := (fun x v => Host.reduce IntOp.andi x v reducesTo_S20000x128_S_d0_1 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S2000000 : Shape := ⟨1, ![2000000]⟩
abbrev S100000x128 : Shape := ⟨2, ![100000, 128]⟩
abbrev S20000x128 : Shape := ⟨2, ![20000, 128]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S2000000x1 : Shape := ⟨2, ![2000000, 1]⟩
abbrev S100000x1 : Shape := ⟨2, ![100000, 1]⟩
abbrev S20000 : Shape := ⟨1, ![20000]⟩
abbrev S20000x1 : Shape := ⟨2, ![20000, 1]⟩
abbrev S2000000x128 : Shape := ⟨2, ![2000000, 128]⟩
abbrev S128x128 : Shape := ⟨2, ![128, 128]⟩
abbrev S100000x64 : Shape := ⟨2, ![100000, 64]⟩
abbrev S1000x128 : Shape := ⟨2, ![1000, 128]⟩
abbrev S1000x64 : Shape := ⟨2, ![1000, 64]⟩
abbrev S1x128 : Shape := ⟨2, ![1, 128]⟩
abbrev S1000 : Shape := ⟨1, ![1000]⟩
abbrev S1000x1 : Shape := ⟨2, ![1000, 1]⟩
abbrev S1x64 : Shape := ⟨2, ![1, 64]⟩
abbrev S20000x64 : Shape := ⟨2, ![20000, 64]⟩

abbrev nBuf : Space → Nat
  | .hbm => 79
  | .vmem => 30
  | .smem => 0
  | _ => 0

abbrev bufTy : (tb : Table) → Fin (tcTables nBuf tb) → BufTy
  | .hbm, ⟨0, _⟩ => ⟨S2000000, .i32⟩
  | .hbm, ⟨1, _⟩ => ⟨S2000000, .i32⟩
  | .hbm, ⟨2, _⟩ => ⟨S2000000, .f32⟩
  | .hbm, ⟨3, _⟩ => ⟨S100000x128, .f32⟩
  | .hbm, ⟨4, _⟩ => ⟨S20000x128, .f32⟩
  | .hbm, ⟨5, _⟩ => ⟨S256x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S256x128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128x64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S100000, .f32⟩
  | .hbm, ⟨23, _⟩ => ⟨S2000000x1, .i32⟩
  | .hbm, ⟨24, _⟩ => ⟨S100000, .f32⟩
  | .hbm, ⟨25, _⟩ => ⟨S100000x1, .f32⟩
  | .hbm, ⟨26, _⟩ => ⟨S_, .f32⟩
  | .hbm, ⟨27, _⟩ => ⟨S100000x1, .f32⟩
  | .hbm, ⟨28, _⟩ => ⟨S100000x1, .f32⟩
  | .hbm, ⟨29, _⟩ => ⟨S_, .f32⟩
  | .hbm, ⟨30, _⟩ => ⟨S20000, .f32⟩
  | .hbm, ⟨31, _⟩ => ⟨S2000000x1, .i32⟩
  | .hbm, ⟨32, _⟩ => ⟨S20000, .f32⟩
  | .hbm, ⟨33, _⟩ => ⟨S20000x1, .f32⟩
  | .hbm, ⟨34, _⟩ => ⟨S_, .f32⟩
  | .hbm, ⟨35, _⟩ => ⟨S20000x1, .f32⟩
  | .hbm, ⟨36, _⟩ => ⟨S20000x1, .f32⟩
  | .hbm, ⟨37, _⟩ => ⟨S2000000x1, .f32⟩
  | .hbm, ⟨38, _⟩ => ⟨S_, .i32⟩
  | .hbm, ⟨39, _⟩ => ⟨S2000000, .i32⟩
  | .hbm, ⟨40, _⟩ => ⟨S2000000, .i1⟩
  | .hbm, ⟨41, _⟩ => ⟨S_, .i32⟩
  | .hbm, ⟨42, _⟩ => ⟨S2000000, .i32⟩
  | .hbm, ⟨43, _⟩ => ⟨S2000000, .i32⟩
  | .hbm, ⟨44, _⟩ => ⟨S2000000, .i32⟩
  | .hbm, ⟨45, _⟩ => ⟨S2000000x1, .i32⟩
  | .hbm, ⟨46, _⟩ => ⟨S2000000x128, .f32⟩
  | .hbm, ⟨47, _⟩ => ⟨S2000000x128, .f32⟩
  | .hbm, ⟨48, _⟩ => ⟨S2000000x128, .f32⟩
  | .hbm, ⟨49, _⟩ => ⟨S_, .f32⟩
  | .hbm, ⟨50, _⟩ => ⟨S100000x128, .f32⟩
  | .hbm, ⟨51, _⟩ => ⟨S2000000x1, .i32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S2000000x1, .f32⟩
  | .hbm, ⟨56, _⟩ => ⟨S_, .i32⟩
  | .hbm, ⟨57, _⟩ => ⟨S2000000, .i32⟩
  | .hbm, ⟨58, _⟩ => ⟨S2000000, .i1⟩
  | .hbm, ⟨59, _⟩ => ⟨S_, .i32⟩
  | .hbm, ⟨60, _⟩ => ⟨S2000000, .i32⟩
  | .hbm, ⟨61, _⟩ => ⟨S2000000, .i32⟩
  | .hbm, ⟨62, _⟩ => ⟨S2000000, .i32⟩
  | .hbm, ⟨63, _⟩ => ⟨S2000000x1, .i32⟩
  | .hbm, ⟨64, _⟩ => ⟨S2000000x128, .f32⟩
  | .hbm, ⟨65, _⟩ => ⟨S2000000x128, .f32⟩
  | .hbm, ⟨66, _⟩ => ⟨S2000000x128, .f32⟩
  | .hbm, ⟨67, _⟩ => ⟨S_, .f32⟩
  | .hbm, ⟨68, _⟩ => ⟨S20000x128, .f32⟩
  | .hbm, ⟨69, _⟩ => ⟨S2000000x1, .i32⟩
  | .hbm, ⟨70, _⟩ => ⟨S20000x128, .f32⟩
  | .hbm, ⟨71, _⟩ => ⟨S20000x128, .f32⟩
  | .hbm, ⟨72, _⟩ => ⟨S20000x128, .f32⟩
  | .hbm, ⟨73, _⟩ => ⟨S128x128, .f32⟩
  | .hbm, ⟨74, _⟩ => ⟨S128x128, .f32⟩
  | .hbm, ⟨75, _⟩ => ⟨S100000x64, .f32⟩
  | .hbm, ⟨76, _⟩ => ⟨S128x128, .f32⟩
  | .hbm, ⟨77, _⟩ => ⟨S128x128, .f32⟩
  | .hbm, ⟨78, _⟩ => ⟨S20000x64, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S128x64, .f32⟩
  | .local _ .vmem, ⟨10, _⟩ => ⟨S64, .f32⟩
  | .local _ .vmem, ⟨11, _⟩ => ⟨S64, .f32⟩
  | .local _ .vmem, ⟨12, _⟩ => ⟨S64, .f32⟩
  | .local _ .vmem, ⟨13, _⟩ => ⟨S1000x64, .f32⟩
  | .local _ .vmem, ⟨14, _⟩ => ⟨S1000x64, .f32⟩
  | .local _ .vmem, ⟨15, _⟩ => ⟨S1000x128, .f32⟩
  | .local _ .vmem, ⟨16, _⟩ => ⟨S1000x128, .f32⟩
  | .local _ .vmem, ⟨17, _⟩ => ⟨S1000x128, .f32⟩
  | .local _ .vmem, ⟨18, _⟩ => ⟨S1000x128, .f32⟩
  | .local _ .vmem, ⟨19, _⟩ => ⟨S128x128, .f32⟩
  | .local _ .vmem, ⟨20, _⟩ => ⟨S128x128, .f32⟩
  | .local _ .vmem, ⟨21, _⟩ => ⟨S128, .f32⟩
  | .local _ .vmem, ⟨22, _⟩ => ⟨S128, .f32⟩
  | .local _ .vmem, ⟨23, _⟩ => ⟨S128, .f32⟩
  | .local _ .vmem, ⟨24, _⟩ => ⟨S128x64, .f32⟩
  | .local _ .vmem, ⟨25, _⟩ => ⟨S64, .f32⟩
  | .local _ .vmem, ⟨26, _⟩ => ⟨S64, .f32⟩
  | .local _ .vmem, ⟨27, _⟩ => ⟨S64, .f32⟩
  | .local _ .vmem, ⟨28, _⟩ => ⟨S1000x64, .f32⟩
  | .local _ .vmem, ⟨29, _⟩ => ⟨S1000x64, .f32⟩
  | _, _ => ⟨S2000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst_0 : Ref sig .tc := ⟨.hbm, 26, rfl⟩
abbrev main_v4 : Ref sig .tc := ⟨.hbm, 27, rfl⟩
abbrev main_v5 : Ref sig .tc := ⟨.hbm, 28, rfl⟩
abbrev main_cst_1 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst_2 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_c : Ref sig .tc := ⟨.hbm, 38, rfl⟩
abbrev main_v13 : Ref sig .tc := ⟨.hbm, 39, rfl⟩
abbrev main_v14 : Ref sig .tc := ⟨.hbm, 40, rfl⟩
abbrev main_c_3 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_4 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_5 : Ref sig .tc := ⟨.hbm, 56, rfl⟩
abbrev main_v28 : Ref sig .tc := ⟨.hbm, 57, rfl⟩
abbrev main_v29 : Ref sig .tc := ⟨.hbm, 58, rfl⟩
abbrev main_c_6 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_7 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg11_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem11_1 : DmaSem sig := 29

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S1000x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  bcast_S_S100000 : S_.BroadcastsInDim S100000 (![] : Fin 0 → Fin S100000.rank)
  bcast_S2000000_S2000000x1_0 : S2000000.BroadcastsInDim S2000000x1 (![0] : Fin 1 → Fin S2000000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S20000 : S_.BroadcastsInDim S20000 (![] : Fin 0 → Fin S20000.rank)
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S_S2000000 : S_.BroadcastsInDim S2000000 (![] : Fin 0 → Fin S2000000.rank)
  bcast_S2000000x1_S2000000x128_0_1 : S2000000x1.BroadcastsInDim S2000000x128 (![0, 1] : Fin 2 → Fin S2000000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S_S20000x128 : S_.BroadcastsInDim S20000x128 (![] : Fin 0 → Fin S20000x128.rank)
  bcast_S20000x1_S20000x128_0_1 : S20000x1.BroadcastsInDim S20000x128 (![0, 1] : Fin 2 → Fin S20000x128.rank)
  slices_S256x128_S128x128_0_0 : S256x128.Slices ![0, 0] S128x128
  slices_S256x128_S128x128_128_0 : S256x128.Slices ![128, 0] S128x128
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  shapeCasts_S1000x128_S1000x128 : S1000x128.ShapeCasts S1000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  reduces_S1000x128_S1000 : S1000x128.Reduces [1] S1000
  shapeCasts_S1000_S1000x1 : S1000.ShapeCasts S1000x1
  broadcasts_S1000x1_S1000x128 : S1000x1.Broadcasts S1000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S1000x64 : S1x64.Broadcasts S1000x64
  reduces_S1000x64_S1000 : S1000x64.Reduces [1] S1000
  broadcasts_S1000x1_S1000x64 : S1000x1.Broadcasts S1000x64
  inb_S1000x64_S1000x64_0_0 : ∀ a, (![0, 0] : Fin 2 → Nat) a + S1000x64.size a ≤ S1000x64.size a
  h_S1000x64 : 0 < S1000x64.numel
  scatter_S100000_S2000000x1_S2000000_n_0_0_1_wf : ScatterDims.WF S100000 S2000000x1 S2000000 [] [0] [0] 1
  scatter_S20000_S2000000x1_S2000000_n_0_0_1_wf : ScatterDims.WF S20000 S2000000x1 S2000000 [] [0] [0] 1
  gather_S20000x128_S2000000x1_S2000000x128_1_0_n_n_0_1_1128_wf : GatherDims.WF S20000x128 S2000000x1 S2000000x128 [1] [0] [] [0] [] 1 ![1, 128]
  scatter_S100000x128_S2000000x1_S2000000x128_1_0_0_1_wf : ScatterDims.WF S100000x128 S2000000x1 S2000000x128 [1] [0] [0] 1
  gather_S100000x128_S2000000x1_S2000000x128_1_0_n_n_0_1_1128_wf : GatherDims.WF S100000x128 S2000000x1 S2000000x128 [1] [0] [] [0] [] 1 ![1, 128]
  scatter_S20000x128_S2000000x1_S2000000x128_1_0_0_1_wf : ScatterDims.WF S20000x128 S2000000x1 S2000000x128 [1] [0] [0] 1
  dot_S1000x128_S128x128_S1000x128_1_0_0_1_n_n_wf : DotDims.WF S1000x128 S128x128 S1000x128 [1] [0] [0] [1] [] []
  dot_S1000x128_S128x64_S1000x64_1_0_0_1_n_n_wf : DotDims.WF S1000x128 S128x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S100000x128.size a
  hwx0_0 : ∀ i : grid0.Coords, EltTy.bits .f32 = 32 ∨ (Rect.block (s := S100000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S100000x128.size a
  hwx0_1 : ∀ i : grid0.Coords, EltTy.bits .f32 = 32 ∨ (Rect.block (s := S100000x128) S1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1000x64.size a ≤ S100000x64.size a
  hwx0_11 : ∀ i : grid0.Coords, EltTy.bits .f32 = 32 ∨ (Rect.block (s := S100000x64) S1000x64.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S20000x128.size a
  hwx1_0 : ∀ i : grid1.Coords, EltTy.bits .f32 = 32 ∨ (Rect.block (s := S20000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S20000x128.size a
  hwx1_1 : ∀ i : grid1.Coords, EltTy.bits .f32 = 32 ∨ (Rect.block (s := S20000x128) S1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x64.size a ≤ S128x64.size a
  hwx1_7 : ∀ i : grid1.Coords, EltTy.bits .f32 = 32 ∨ (Rect.block (s := S128x64) S128x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64.size a ≤ S64.size a
  hwx1_8 : ∀ i : grid1.Coords, EltTy.bits .f32 = 32 ∨ (Rect.block (s := S64) S64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64.size a ≤ S64.size a
  hwx1_9 : ∀ i : grid1.Coords, EltTy.bits .f32 = 32 ∨ (Rect.block (s := S64) S64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64.size a ≤ S64.size a
  hwx1_10 : ∀ i : grid1.Coords, EltTy.bits .f32 = 32 ∨ (Rect.block (s := S64) S64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1000x64.size a ≤ S20000x64.size a
  hwx1_11 : ∀ i : grid1.Coords, EltTy.bits .f32 = 32 ∨ (Rect.block (s := S20000x64) S1000x64.size (cc1_transform_11 i) (hinb1_11 i)).WholeWords (EltTy.packing .f32)

variable [Facts₀]

def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def scatter_S20000_S2000000x1_S2000000_n_0_0_1 : ScatterDims S20000 S2000000x1 S2000000 where
  updateWindowDims := []
  insertedWindowDims := [0]
  scatterDimsToOperandDims := [0]
  indexVectorDim := 1
  wf := scatter_S20000_S2000000x1_S2000000_n_0_0_1_wf
def gather_S20000x128_S2000000x1_S2000000x128_1_0_n_n_0_1_1128 : GatherDims S20000x128 S2000000x1 S2000000x128 where
  offsetDims := [1]
  collapsedSliceDims := [0]
  operandBatchingDims := []
  startIndicesBatchingDims := []
  startIndexMap := [0]
  indexVectorDim := 1
  sliceSizes := ![1, 128]
  wf := gather_S20000x128_S2000000x1_S2000000x128_1_0_n_n_0_1_1128_wf
def scatter_S100000x128_S2000000x1_S2000000x128_1_0_0_1 : ScatterDims S100000x128 S2000000x1 S2000000x128 where
  updateWindowDims := [1]
  insertedWindowDims := [0]
  scatterDimsToOperandDims := [0]
  indexVectorDim := 1
  wf := scatter_S100000x128_S2000000x1_S2000000x128_1_0_0_1_wf
def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def scatter_S20000x128_S2000000x1_S2000000x128_1_0_0_1 : ScatterDims S20000x128 S2000000x1 S2000000x128 where
  updateWindowDims := [1]
  insertedWindowDims := [0]
  scatterDimsToOperandDims := [0]
  indexVectorDim := 1
  wf := scatter_S20000x128_S2000000x1_S2000000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf

abbrev win0_0 : Pipeline.Window sig grid0 :=
  Pipeline.Window.ofSpec (Memref.whole main_arg3) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v42) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v44) S1000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg4) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg15) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg16) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg17) S128x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg18) S64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg19) S64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg20) S64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v47) S1000x64.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S2000000 : Shape := ⟨1, ![2000000]⟩
abbrev S100000x128 : Shape := ⟨2, ![100000, 128]⟩
abbrev S20000x128 : Shape := ⟨2, ![20000, 128]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S2000000x1 : Shape := ⟨2, ![2000000, 1]⟩
abbrev S100000x1 : Shape := ⟨2, ![100000, 1]⟩
abbrev S20000 : Shape := ⟨1, ![20000]⟩
abbrev S20000x1 : Shape := ⟨2, ![20000, 1]⟩
abbrev S2000000x128 : Shape := ⟨2, ![2000000, 128]⟩
abbrev S100000x256 : Shape := ⟨2, ![100000, 256]⟩
abbrev S1x128 : Shape := ⟨2, ![1, 128]⟩
abbrev S100000x64 : Shape := ⟨2, ![100000, 64]⟩
abbrev S1x64 : Shape := ⟨2, ![1, 64]⟩
abbrev S20000x256 : Shape := ⟨2, ![20000, 256]⟩
abbrev S20000x64 : Shape := ⟨2, ![20000, 64]⟩

abbrev nBuf : Space → Nat
  | .hbm => 213
  | .vmem => 0
  | .smem => 0
  | _ => 0

abbrev hbmTy0_0 (i : Nat) : BufTy := match i % 128 with
  | 0 => ⟨S2000000, .i32⟩
  | 1 => ⟨S2000000, .i32⟩
  | 2 => ⟨S2000000, .f32⟩
  | 3 => ⟨S100000x128, .f32⟩
  | 4 => ⟨S20000x128, .f32⟩
  | 5 => ⟨S256x128, .f32⟩
  | 6 => ⟨S128, .f32⟩
  | 7 => ⟨S128, .f32⟩
  | 8 => ⟨S128, .f32⟩
  | 9 => ⟨S128x64, .f32⟩
  | 10 => ⟨S64, .f32⟩
  | 11 => ⟨S64, .f32⟩
  | 12 => ⟨S64, .f32⟩
  | 13 => ⟨S256x128, .f32⟩
  | 14 => ⟨S128, .f32⟩
  | 15 => ⟨S128, .f32⟩
  | 16 => ⟨S128, .f32⟩
  | 17 => ⟨S128x64, .f32⟩
  | 18 => ⟨S64, .f32⟩
  | 19 => ⟨S64, .f32⟩
  | 20 => ⟨S64, .f32⟩
  | 21 => ⟨S_, .f32⟩
  | 22 => ⟨S100000, .f32⟩
  | 23 => ⟨S2000000x1, .i32⟩
  | 24 => ⟨S100000, .f32⟩
  | 25 => ⟨S100000x1, .f32⟩
  | 26 => ⟨S_, .f32⟩
  | 27 => ⟨S100000x1, .f32⟩
  | 28 => ⟨S100000x1, .f32⟩
  | 29 => ⟨S_, .f32⟩
  | 30 => ⟨S20000, .f32⟩
  | 31 => ⟨S2000000x1, .i32⟩
  | 32 => ⟨S20000, .f32⟩
  | 33 => ⟨S20000x1, .f32⟩
  | 34 => ⟨S_, .f32⟩
  | 35 => ⟨S20000x1, .f32⟩
  | 36 => ⟨S20000x1, .f32⟩
  | 37 => ⟨S2000000x1, .f32⟩
  | 38 => ⟨S_, .i32⟩
  | 39 => ⟨S2000000, .i32⟩
  | 40 => ⟨S2000000, .i1⟩
  | 41 => ⟨S_, .i32⟩
  | 42 => ⟨S2000000, .i32⟩
  | 43 => ⟨S2000000, .i32⟩
  | 44 => ⟨S2000000, .i32⟩
  | 45 => ⟨S2000000x1, .i32⟩
  | 46 => ⟨S2000000x128, .f32⟩
  | 47 => ⟨S2000000x128, .f32⟩
  | 48 => ⟨S2000000x128, .f32⟩
  | 49 => ⟨S_, .f32⟩
  | 50 => ⟨S100000x128, .f32⟩
  | 51 => ⟨S2000000x1, .i32⟩
  | 52 => ⟨S100000x128, .f32⟩
  | 53 => ⟨S100000x128, .f32⟩
  | 54 => ⟨S100000x128, .f32⟩
  | 55 => ⟨S2000000x1, .f32⟩
  | 56 => ⟨S_, .i32⟩
  | 57 => ⟨S2000000, .i32⟩
  | 58 => ⟨S2000000, .i1⟩
  | 59 => ⟨S_, .i32⟩
  | 60 => ⟨S2000000, .i32⟩
  | 61 => ⟨S2000000, .i32⟩
  | 62 => ⟨S2000000, .i32⟩
  | 63 => ⟨S2000000x1, .i32⟩
  | 64 => ⟨S2000000x128, .f32⟩
  | 65 => ⟨S2000000x128, .f32⟩
  | 66 => ⟨S2000000x128, .f32⟩
  | 67 => ⟨S_, .f32⟩
  | 68 => ⟨S20000x128, .f32⟩
  | 69 => ⟨S2000000x1, .i32⟩
  | 70 => ⟨S20000x128, .f32⟩
  | 71 => ⟨S20000x128, .f32⟩
  | 72 => ⟨S20000x128, .f32⟩
  | 73 => ⟨S100000x256, .f32⟩
  | 74 => ⟨S100000x128, .f32⟩
  | 75 => ⟨S1x128, .f32⟩
  | 76 => ⟨S100000x128, .f32⟩
  | 77 => ⟨S100000x128, .f32⟩
  | 78 => ⟨S_, .f32⟩
  | 79 => ⟨S100000, .f32⟩
  | 80 => ⟨S100000x1, .f32⟩
  | 81 => ⟨S_, .f32⟩
  | 82 => ⟨S100000x1, .f32⟩
  | 83 => ⟨S100000x1, .f32⟩
  | 84 => ⟨S100000x128, .f32⟩
  | 85 => ⟨S100000x128, .f32⟩
  | 86 => ⟨S100000x128, .f32⟩
  | 87 => ⟨S_, .f32⟩
  | 88 => ⟨S100000, .f32⟩
  | 89 => ⟨S100000x1, .f32⟩
  | 90 => ⟨S_, .f32⟩
  | 91 => ⟨S100000x1, .f32⟩
  | 92 => ⟨S100000x1, .f32⟩
  | 93 => ⟨S100000x128, .f32⟩
  | 94 => ⟨S100000x128, .f32⟩
  | 95 => ⟨S_, .f32⟩
  | 96 => ⟨S100000x1, .f32⟩
  | 97 => ⟨S100000x1, .f32⟩
  | 98 => ⟨S100000x1, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S_, .f32⟩
  | 108 => ⟨S100000x128, .f32⟩
  | 109 => ⟨S100000x128, .f32⟩
  | 110 => ⟨S100000x64, .f32⟩
  | 111 => ⟨S1x64, .f32⟩
  | 112 => ⟨S100000x64, .f32⟩
  | 113 => ⟨S100000x64, .f32⟩
  | 114 => ⟨S_, .f32⟩
  | 115 => ⟨S100000, .f32⟩
  | 116 => ⟨S100000x1, .f32⟩
  | 117 => ⟨S_, .f32⟩
  | 118 => ⟨S100000x1, .f32⟩
  | 119 => ⟨S100000x1, .f32⟩
  | 120 => ⟨S100000x64, .f32⟩
  | 121 => ⟨S100000x64, .f32⟩
  | 122 => ⟨S100000x64, .f32⟩
  | 123 => ⟨S_, .f32⟩
  | 124 => ⟨S100000, .f32⟩
  | 125 => ⟨S100000x1, .f32⟩
  | 126 => ⟨S_, .f32⟩
  | 127 => ⟨S100000x1, .f32⟩
  | _ => ⟨S2000000, .i32⟩

abbrev hbmTy0_1 (i : Nat) : BufTy := match i % 128 with
  | 0 => ⟨S100000x1, .f32⟩
  | 1 => ⟨S100000x64, .f32⟩
  | 2 => ⟨S100000x64, .f32⟩
  | 3 => ⟨S_, .f32⟩
  | 4 => ⟨S100000x1, .f32⟩
  | 5 => ⟨S100000x1, .f32⟩
  | 6 => ⟨S100000x1, .f32⟩
  | 7 => ⟨S100000x64, .f32⟩
  | 8 => ⟨S100000x64, .f32⟩
  | 9 => ⟨S1x64, .f32⟩
  | 10 => ⟨S100000x64, .f32⟩
  | 11 => ⟨S100000x64, .f32⟩
  | 12 => ⟨S1x64, .f32⟩
  | 13 => ⟨S100000x64, .f32⟩
  | 14 => ⟨S100000x64, .f32⟩
  | 15 => ⟨S20000x256, .f32⟩
  | 16 => ⟨S20000x128, .f32⟩
  | 17 => ⟨S1x128, .f32⟩
  | 18 => ⟨S20000x128, .f32⟩
  | 19 => ⟨S20000x128, .f32⟩
  | 20 => ⟨S_, .f32⟩
  | 21 => ⟨S20000, .f32⟩
  | 22 => ⟨S20000x1, .f32⟩
  | 23 => ⟨S_, .f32⟩
  | 24 => ⟨S20000x1, .f32⟩
  | 25 => ⟨S20000x1, .f32⟩
  | 26 => ⟨S20000x128, .f32⟩
  | 27 => ⟨S20000x128, .f32⟩
  | 28 => ⟨S20000x128, .f32⟩
  | 29 => ⟨S_, .f32⟩
  | 30 => ⟨S20000, .f32⟩
  | 31 => ⟨S20000x1, .f32⟩
  | 32 => ⟨S_, .f32⟩
  | 33 => ⟨S20000x1, .f32⟩
  | 34 => ⟨S20000x1, .f32⟩
  | 35 => ⟨S20000x128, .f32⟩
  | 36 => ⟨S20000x128, .f32⟩
  | 37 => ⟨S_, .f32⟩
  | 38 => ⟨S20000x1, .f32⟩
  | 39 => ⟨S20000x1, .f32⟩
  | 40 => ⟨S20000x1, .f32⟩
  | 41 => ⟨S20000x128, .f32⟩
  | 42 => ⟨S20000x128, .f32⟩
  | 43 => ⟨S1x128, .f32⟩
  | 44 => ⟨S20000x128, .f32⟩
  | 45 => ⟨S20000x128, .f32⟩
  | 46 => ⟨S1x128, .f32⟩
  | 47 => ⟨S20000x128, .f32⟩
  | 48 => ⟨S20000x128, .f32⟩
  | 49 => ⟨S_, .f32⟩
  | 50 => ⟨S20000x128, .f32⟩
  | 51 => ⟨S20000x128, .f32⟩
  | 52 => ⟨S20000x64, .f32⟩
  | 53 => ⟨S1x64, .f32⟩
  | 54 => ⟨S20000x64, .f32⟩
  | 55 => ⟨S20000x64, .f32⟩
  | 56 => ⟨S_, .f32⟩
  | 57 => ⟨S20000, .f32⟩
  | 58 => ⟨S20000x1, .f32⟩
  | 59 => ⟨S_, .f32⟩
  | 60 => ⟨S20000x1, .f32⟩
  | 61 => ⟨S20000x1, .f32⟩
  | 62 => ⟨S20000x64, .f32⟩
  | 63 => ⟨S20000x64, .f32⟩
  | 64 => ⟨S20000x64, .f32⟩
  | 65 => ⟨S_, .f32⟩
  | 66 => ⟨S20000, .f32⟩
  | 67 => ⟨S20000x1, .f32⟩
  | 68 => ⟨S_, .f32⟩
  | 69 => ⟨S20000x1, .f32⟩
  | 70 => ⟨S20000x1, .f32⟩
  | 71 => ⟨S20000x64, .f32⟩
  | 72 => ⟨S20000x64, .f32⟩
  | 73 => ⟨S_, .f32⟩
  | 74 => ⟨S20000x1, .f32⟩
  | 75 => ⟨S20000x1, .f32⟩
  | 76 => ⟨S20000x1, .f32⟩
  | 77 => ⟨S20000x64, .f32⟩
  | 78 => ⟨S20000x64, .f32⟩
  | 79 => ⟨S1x64, .f32⟩
  | 80 => ⟨S20000x64, .f32⟩
  | 81 => ⟨S20000x64, .f32⟩
  | 82 => ⟨S1x64, .f32⟩
  | 83 => ⟨S20000x64, .f32⟩
  | 84 => ⟨S20000x64, .f32⟩
  | _ => ⟨S2000000, .i32⟩

abbrev hbmTy (i : Nat) : BufTy := match i / 128 with
  | 0 => hbmTy0_0 i
  | 1 => hbmTy0_1 i
  | _ => ⟨S2000000, .i32⟩

abbrev bufTy : (tb : Table) → Fin (tcTables nBuf tb) → BufTy
  | .hbm, ⟨i, _⟩ => hbmTy i
  | _, _ => ⟨S2000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst_0 : Ref sig .tc := ⟨.hbm, 26, rfl⟩
abbrev main_v4 : Ref sig .tc := ⟨.hbm, 27, rfl⟩
abbrev main_v5 : Ref sig .tc := ⟨.hbm, 28, rfl⟩
abbrev main_cst_1 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst_2 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_c : Ref sig .tc := ⟨.hbm, 38, rfl⟩
abbrev main_v13 : Ref sig .tc := ⟨.hbm, 39, rfl⟩
abbrev main_v14 : Ref sig .tc := ⟨.hbm, 40, rfl⟩
abbrev main_c_3 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_4 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_5 : Ref sig .tc := ⟨.hbm, 56, rfl⟩
abbrev main_v28 : Ref sig .tc := ⟨.hbm, 57, rfl⟩
abbrev main_v29 : Ref sig .tc := ⟨.hbm, 58, rfl⟩
abbrev main_c_6 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_7 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_8 : Ref sig .tc := ⟨.hbm, 78, rfl⟩
abbrev main_v47 : Ref sig .tc := ⟨.hbm, 79, rfl⟩
abbrev main_v48 : Ref sig .tc := ⟨.hbm, 80, rfl⟩
abbrev main_cst_9 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_10 : Ref sig .tc := ⟨.hbm, 87, rfl⟩
abbrev main_v54 : Ref sig .tc := ⟨.hbm, 88, rfl⟩
abbrev main_v55 : Ref sig .tc := ⟨.hbm, 89, rfl⟩
abbrev main_cst_11 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_12 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_call0_cst : Ref sig .tc := ⟨.hbm, 107, rfl⟩
abbrev main_call0_v0 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_13 : Ref sig .tc := ⟨.hbm, 114, rfl⟩
abbrev main_v76 : Ref sig .tc := ⟨.hbm, 115, rfl⟩
abbrev main_v77 : Ref sig .tc := ⟨.hbm, 116, rfl⟩
abbrev main_cst_14 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_15 : Ref sig .tc := ⟨.hbm, 123, rfl⟩
abbrev main_v83 : Ref sig .tc := ⟨.hbm, 124, rfl⟩
abbrev main_v84 : Ref sig .tc := ⟨.hbm, 125, rfl⟩
abbrev main_cst_16 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_17 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_18 : Ref sig .tc := ⟨.hbm, 148, rfl⟩
abbrev main_v105 : Ref sig .tc := ⟨.hbm, 149, rfl⟩
abbrev main_v106 : Ref sig .tc := ⟨.hbm, 150, rfl⟩
abbrev main_cst_19 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_cst_20 : Ref sig .tc := ⟨.hbm, 157, rfl⟩
abbrev main_v112 : Ref sig .tc := ⟨.hbm, 158, rfl⟩
abbrev main_v113 : Ref sig .tc := ⟨.hbm, 159, rfl⟩
abbrev main_cst_21 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_cst_22 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_call1_cst : Ref sig .tc := ⟨.hbm, 177, rfl⟩
abbrev main_call1_v0 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_cst_23 : Ref sig .tc := ⟨.hbm, 184, rfl⟩
abbrev main_v134 : Ref sig .tc := ⟨.hbm, 185, rfl⟩
abbrev main_v135 : Ref sig .tc := ⟨.hbm, 186, rfl⟩
abbrev main_cst_24 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_cst_25 : Ref sig .tc := ⟨.hbm, 193, rfl⟩
abbrev main_v141 : Ref sig .tc := ⟨.hbm, 194, rfl⟩
abbrev main_v142 : Ref sig .tc := ⟨.hbm, 195, rfl⟩
abbrev main_cst_26 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_cst_27 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S2000000_S2000000x1_0 : S2000000.BroadcastsInDim S2000000x1 (![0] : Fin 1 → Fin S2000000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S20000 : S_.BroadcastsInDim S20000 (![] : Fin 0 → Fin S20000.rank)
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S_S2000000 : S_.BroadcastsInDim S2000000 (![] : Fin 0 → Fin S2000000.rank)
  bcast_S2000000x1_S2000000x128_0_1 : S2000000x1.BroadcastsInDim S2000000x128 (![0, 1] : Fin 2 → Fin S2000000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S_S20000x128 : S_.BroadcastsInDim S20000x128 (![] : Fin 0 → Fin S20000x128.rank)
  bcast_S20000x1_S20000x128_0_1 : S20000x1.BroadcastsInDim S20000x128 (![0, 1] : Fin 2 → Fin S20000x128.rank)
  concatenates_S100000x128_S100000x128_S100000x256_d1 : Shape.Concatenates [S100000x128, S100000x128] S100000x256 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  bcast_S100000x1_S100000x64_0_1 : S100000x1.BroadcastsInDim S100000x64 (![0, 1] : Fin 2 → Fin S100000x64.rank)
  concatenates_S20000x128_S20000x128_S20000x256_d1 : Shape.Concatenates [S20000x128, S20000x128] S20000x256 1
  bcast_S1x128_S20000x128_0_1 : S1x128.BroadcastsInDim S20000x128 (![0, 1] : Fin 2 → Fin S20000x128.rank)
  reducesTo_S20000x128_S20000_d1 : S20000x128.ReducesTo [1] S20000
  bcast_S1x64_S20000x64_0_1 : S1x64.BroadcastsInDim S20000x64 (![0, 1] : Fin 2 → Fin S20000x64.rank)
  reducesTo_S20000x64_S20000_d1 : S20000x64.ReducesTo [1] S20000
  bcast_S20000x1_S20000x64_0_1 : S20000x1.BroadcastsInDim S20000x64 (![0, 1] : Fin 2 → Fin S20000x64.rank)
  scatter_S100000_S2000000x1_S2000000_n_0_0_1_wf : ScatterDims.WF S100000 S2000000x1 S2000000 [] [0] [0] 1
  scatter_S20000_S2000000x1_S2000000_n_0_0_1_wf : ScatterDims.WF S20000 S2000000x1 S2000000 [] [0] [0] 1
  gather_S20000x128_S2000000x1_S2000000x128_1_0_n_n_0_1_1128_wf : GatherDims.WF S20000x128 S2000000x1 S2000000x128 [1] [0] [] [0] [] 1 ![1, 128]
  scatter_S100000x128_S2000000x1_S2000000x128_1_0_0_1_wf : ScatterDims.WF S100000x128 S2000000x1 S2000000x128 [1] [0] [0] 1
  gather_S100000x128_S2000000x1_S2000000x128_1_0_n_n_0_1_1128_wf : GatherDims.WF S100000x128 S2000000x1 S2000000x128 [1] [0] [] [0] [] 1 ![1, 128]
  scatter_S20000x128_S2000000x1_S2000000x128_1_0_0_1_wf : ScatterDims.WF S20000x128 S2000000x1 S2000000x128 [1] [0] [0] 1
  dot_S100000x256_S256x128_S100000x128_1_0_0_1_n_n_wf : DotDims.WF S100000x256 S256x128 S100000x128 [1] [0] [0] [1] [] []
  dot_S100000x128_S128x64_S100000x64_1_0_0_1_n_n_wf : DotDims.WF S100000x128 S128x64 S100000x64 [1] [0] [0] [1] [] []
  dot_S20000x256_S256x128_S20000x128_1_0_0_1_n_n_wf : DotDims.WF S20000x256 S256x128 S20000x128 [1] [0] [0] [1] [] []
  dot_S20000x128_S128x64_S20000x64_1_0_0_1_n_n_wf : DotDims.WF S20000x128 S128x64 S20000x64 [1] [0] [0] [1] [] []

variable [Facts₀]

def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def scatter_S20000_S2000000x1_S2000000_n_0_0_1 : ScatterDims S20000 S2000000x1 S2000000 where
  updateWindowDims := []
  insertedWindowDims := [0]
  scatterDimsToOperandDims := [0]
  indexVectorDim := 1
  wf := scatter_S20000_S2000000x1_S2000000_n_0_0_1_wf
def gather_S20000x128_S2000000x1_S2000000x128_1_0_n_n_0_1_1128 : GatherDims S20000x128 S2000000x1 S2000000x128 where
  offsetDims := [1]
  collapsedSliceDims := [0]
  operandBatchingDims := []
  startIndicesBatchingDims := []
  startIndexMap := [0]
  indexVectorDim := 1
  sliceSizes := ![1, 128]
  wf := gather_S20000x128_S2000000x1_S2000000x128_1_0_n_n_0_1_1128_wf
def scatter_S100000x128_S2000000x1_S2000000x128_1_0_0_1 : ScatterDims S100000x128 S2000000x1 S2000000x128 where
  updateWindowDims := [1]
  insertedWindowDims := [0]
  scatterDimsToOperandDims := [0]
  indexVectorDim := 1
  wf := scatter_S100000x128_S2000000x1_S2000000x128_1_0_0_1_wf
def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def scatter_S20000x128_S2000000x1_S2000000x128_1_0_0_1 : ScatterDims S20000x128 S2000000x1 S2000000x128 where
  updateWindowDims := [1]
  insertedWindowDims := [0]
  scatterDimsToOperandDims := [0]
  indexVectorDim := 1
  wf := scatter_S20000x128_S2000000x1_S2000000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf

class Facts : Prop extends Facts₀ where

variable [Facts]
-- ==== Proof.BlockReads.lean ====
/-
  Where each window's block sits in its array, for the two pipelined launches of the perceptron kernel.

  Each launch walks a one-axis grid; at point `t` the embedding window, the message window and the result window hold
  rows `1000 t … 1000 t + 999` of their arrays, and the eight parameter windows (the two halves of the first matrix, the
  biases, scales and shifts, the second matrix) hold their whole arrays. A block's coordinate in the array is always the
  block index times the block size plus the coordinate inside the block; the block indices are decided once over the grid.
  The result window's blocks tile the result array: row `i` is in the block of point `i / 1000`.
-/
import proofs.«178970_j15917148799744_1_alg».proof.Proof.Gen.KernelIdeal.Frame
import Idealize.ShloMosaic.Lib.Pipeline.Value
import Idealize.ShloMosaic.Lib.ValueIdx

set_option maxRecDepth 16384

noncomputable section

namespace Cert.KernelIdeal.BlockReads

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The first launch: 100 grid points, blocks of 1000 rows of the 100000 -/

/-- The block indices of the launch's windows, decided over its 100 grid points: the two row windows and the
    result window are at block (t, 0); every other window stays at block 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_11.index t (0 : Fin 2) = t.val ∧ win0_11.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_7.index t (0 : Fin 2) = 0 ∧ win0_7.index t (1 : Fin 2) = 0
    ∧ win0_4.index t (0 : Fin 1) = 0 ∧ win0_5.index t (0 : Fin 1) = 0 ∧ win0_6.index t (0 : Fin 1) = 0
    ∧ win0_8.index t (0 : Fin 1) = 0 ∧ win0_9.index t (0 : Fin 1) = 0 ∧ win0_10.index t (0 : Fin 1) = 0 :=
  (by decide +kernel : ∀ t : Fin grid0.N, _)

theorem tlt0 (t : Fin cfg0.N) : t.val < 100 := by have := t.isLt; have h : cfg0.N = 100 := N_0; omega

/-- Row `r` of the embedding window's block at point `t` is row `1000 t + r` of the array. -/
theorem blk0_0 (c : Dev nD) (t : Fin cfg0.N) (r : Fin 1000) (k : Fin 128) :
    (iblk0 V c 0 t : Vec Ideal S1000x128 .f32) (ix2 r k) = (V c main_arg3 : S100000x128.Idx → EReal) (ix2 ⟨t.val * 1000 + r.val, by have := tlt0 t; omega⟩ k) := by
  obtain ⟨h0, h1, -⟩ := idx_facts0 t
  unfold iblk0
  rw [View.read_apply]
  show V c main_arg3 _ = V c main_arg3 _
  congr 1
  funext a
  apply Fin.ext
  match a with
  | ⟨0, _⟩ => show win0_0.index t 0 * 1000 + 1 * r.val = t.val * 1000 + r.val; rw [h0]; omega
  | ⟨1, _⟩ => show win0_0.index t 1 * 128 + 1 * k.val = k.val; rw [h1]; omega

/-- Row `r` of the message window's block at point `t` is row `1000 t + r` of the array. -/
theorem blk0_1 (c : Dev nD) (t : Fin cfg0.N) (r : Fin 1000) (k : Fin 128) :
    (iblk0 V c 1 t : Vec Ideal S1000x128 .f32) (ix2 r k) = (V c main_v26 : S100000x128.Idx → EReal) (ix2 ⟨t.val * 1000 + r.val, by have := tlt0 t; omega⟩ k) := by
  obtain ⟨-, -, h0, h1, -⟩ := idx_facts0 t
  unfold iblk0
  rw [View.read_apply]
  show V c main_v26 _ = V c main_v26 _
  congr 1
  funext a
  apply Fin.ext
  match a with
  | ⟨0, _⟩ => show win0_1.index t 0 * 1000 + 1 * r.val = t.val * 1000 + r.val; rw [h0]; omega
  | ⟨1, _⟩ => show win0_1.index t 1 * 128 + 1 * k.val = k.val; rw [h1]; omega

/-- The first half of the first matrix is staged whole at every point. -/
theorem blk0_2 (c : Dev nD) (t : Fin cfg0.N) (k : Fin 128) (j : Fin 128) :
    (iblk0 V c 2 t : Vec Ideal S128x128 .f32) (ix2 k j) = (V c main_v42 : S128x128.Idx → EReal) (ix2 k j) := by
  obtain ⟨-, -, -, -, -, -, h0, h1, -⟩ := idx_facts0 t
  unfold iblk0
  rw [View.read_apply]
  show V c main_v42 _ = V c main_v42 _
  congr 1
  funext a
  apply Fin.ext
  match a with
  | ⟨0, _⟩ => show win0_2.index t 0 * 128 + 1 * k.val = k.val; rw [h0]; omega
  | ⟨1, _⟩ => show win0_2.index t 1 * 128 + 1 * j.val = j.val; rw [h1]; omega

/-- The second half of the first matrix is staged whole at every point. -/
theorem blk0_3 (c : Dev nD) (t : Fin cfg0.N) (k : Fin 128) (j : Fin 128) :
    (iblk0 V c 3 t : Vec Ideal S128x128 .f32) (ix2 k j) = (V c main_v43 : S128x128.Idx → EReal) (ix2 k j) := by
  obtain ⟨-, -, -, -, -, -, -, -, h0, h1, -⟩ := idx_facts0 t
  unfold iblk0
  rw [View.read_apply]
  show V c main_v43 _ = V c main_v43 _
  congr 1
  funext a
  apply Fin.ext
  match a with
  | ⟨0, _⟩ => show win0_3.index t 0 * 128 + 1 * k.val = k.val; rw [h0]; omega
  | ⟨1, _⟩ => show win0_3.index t 1 * 128 + 1 * j.val = j.val; rw [h1]; omega

/-- The second matrix is staged whole at every point. -/
theorem blk0_7 (c : Dev nD) (t : Fin cfg0.N) (k : Fin 128) (j : Fin 64) :
    (iblk0 V c 7 t : Vec Ideal S128x64 .f32) (ix2 k j) = (V c main_arg9 : S128x64.Idx → EReal) (ix2 k j) := by
  obtain ⟨-, -, -, -, -, -, -, -, -, -, h0, h1, -⟩ := idx_facts0 t
  unfold iblk0
  rw [View.read_apply]
  show V c main_arg9 _ = V c main_arg9 _
  congr 1
  funext a
  apply Fin.ext
  match a with
  | ⟨0, _⟩ => show win0_7.index t 0 * 128 + 1 * k.val = k.val; rw [h0]; omega
  | ⟨1, _⟩ => show win0_7.index t 1 * 64 + 1 * j.val = j.val; rw [h1]; omega

/-- The first bias is staged whole at every point. -/
theorem blk0_4 (c : Dev nD) (t : Fin cfg0.N) (k : Fin 128) :
    (iblk0 V c 4 t : Vec Ideal S128 .f32) (ix1 k) = (V c main_arg6 : S128.Idx → EReal) (ix1 k) := by
  obtain ⟨-, -, -, -, -, -, -, -, -, -, -, -, h0, -⟩ := idx_facts0 t
  unfold iblk0
  rw [View.read_apply]
  show V c main_arg6 _ = V c main_arg6 _
  congr 1
  funext a
  apply Fin.ext
  match a with
  | ⟨0, _⟩ => show win0_4.index t 0 * 128 + 1 * k.val = k.val; rw [h0]; omega

/-- The first scale is staged whole at every point. -/
theorem blk0_5 (c : Dev nD) (t : Fin cfg0.N) (k : Fin 128) :
    (iblk0 V c 5 t : Vec Ideal S128 .f32) (ix1 k) = (V c main_arg7 : S128.Idx → EReal) (ix1 k) := by
  obtain ⟨-, -, -, -, -, -, -, -, -, -, -, -, -, h0, -⟩ := idx_facts0 t
  unfold iblk0
  rw [View.read_apply]
  show V c main_arg7 _ = V c main_arg7 _
  congr 1
  funext a
  apply Fin.ext
  match a with
  | ⟨0, _⟩ => show win0_5.index t 0 * 128 + 1 * k.val = k.val; rw [h0]; omega

/-- The first shift is staged whole at every point. -/
theorem blk0_6 (c : Dev nD) (t : Fin cfg0.N) (k : Fin 128) :
    (iblk0 V c 6 t : Vec Ideal S128 .f32) (ix1 k) = (V c main_arg8 : S128.Idx → EReal) (ix1 k) := by
  obtain ⟨-, -, -, -, -, -, -, -, -, -, -, -, -, -, h0, -⟩ := idx_facts0 t
  unfold iblk0
  rw [View.read_apply]
  show V c main_arg8 _ = V c main_arg8 _
  congr 1
  funext a
  apply Fin.ext
  match a with
  | ⟨0, _⟩ => show win0_6.index t 0 * 128 + 1 * k.val = k.val; rw [h0]; omega

/-- The second bias is staged whole at every point. -/
theorem blk0_8 (c : Dev nD) (t : Fin cfg0.N) (k : Fin 64) :
    (iblk0 V c 8 t : Vec Ideal S64 .f32) (ix1 k) = (V c main_arg10 : S64.Idx → EReal) (ix1 k) := by
  obtain ⟨-, -, -, -, -, -, -, -, -, -, -, -, -, -, -, h0, -⟩ := idx_facts0 t
  unfold iblk0
  rw [View.read_apply]
  show V c main_arg10 _ = V c main_arg10 _
  congr 1
  funext a
  apply Fin.ext
  match a with
  | ⟨0, _⟩ => show win0_8.index t 0 * 64 + 1 * k.val = k.val; rw [h0]; omega

/-- The second scale is staged whole at every point. -/
theorem blk0_9 (c : Dev nD) (t : Fin cfg0.N) (k : Fin 64) :
    (iblk0 V c 9 t : Vec Ideal S64 .f32) (ix1 k) = (V c main_arg11 : S64.Idx → EReal) (ix1 k) := by
  obtain ⟨-, -, -, -, -, -, -, -, -, -, -, -, -, -, -, -, h0, -⟩ := idx_facts0 t
  unfold iblk0
  rw [View.read_apply]
  show V c main_arg11 _ = V c main_arg11 _
  congr 1
  funext a
  apply Fin.ext
  match a with
  | ⟨0, _⟩ => show win0_9.index t 0 * 64 + 1 * k.val = k.val; rw [h0]; omega

/-- The second shift is staged whole at every point. -/
theorem blk0_10 (c : Dev nD) (t : Fin cfg0.N) (k : Fin 64) :
    (iblk0 V c 10 t : Vec Ideal S64 .f32) (ix1 k) = (V c main_arg12 : S64.Idx → EReal) (ix1 k) := by
  obtain ⟨-, -, -, -, -, -, -, -, -, -, -, -, -, -, -, -, -, h0⟩ := idx_facts0 t
  unfold iblk0
  rw [View.read_apply]
  show V c main_arg12 _ = V c main_arg12 _
  congr 1
  funext a
  apply Fin.ext
  match a with
  | ⟨0, _⟩ => show win0_10.index t 0 * 64 + 1 * k.val = k.val; rw [h0]; omega

/-- Entry `(r, j)` of the result window's block at point `t` is entry `(1000 t + r, j)` of the result array. -/
theorem emb0_11 (t : Fin cfg0.N) (r : Fin 1000) (j : Fin 64) :
    ((cfg0.win 11).blk t).view.emb (ix2 r j : S1000x64.Idx) = (ix2 ⟨t.val * 1000 + r.val, by have := tlt0 t; omega⟩ j : S100000x64.Idx) := by
  obtain ⟨-, -, -, -, h0, h1, -⟩ := idx_facts0 t
  funext a
  apply Fin.ext
  match a with
  | ⟨0, _⟩ => show win0_11.index t 0 * 1000 + 1 * r.val = t.val * 1000 + r.val; rw [h0]; omega
  | ⟨1, _⟩ => show win0_11.index t 1 * 64 + 1 * j.val = j.val; rw [h1]; omega

/-- An index of the result array is in point `t`'s block iff each coordinate is in the block's range on its axis. -/
theorem mem_blk0 (t : Fin cfg0.N) (i : S100000x64.Idx) :
    i ∈ ((cfg0.win 11).blk t).view.set ↔ ∀ a : Fin 2, win0_11.index t a * S1000x64.size a ≤ (i a).val ∧ (i a).val < win0_11.index t a * S1000x64.size a + S1000x64.size a := by
  show i ∈ ((View.whole main_v44).slice (win0_11.rect t)).set ↔ _
  rw [View.set_slice_whole, Rect.mem_set_unit]
  exact Iff.rfl

/-- Every index of the result array is in the block of the point its row falls to: the 100 blocks of 1000 rows tile the array. -/
theorem cover0 (i : S100000x64.Idx) : ∃ t : Fin cfg0.N, (cfg0.win 11).flush t = true ∧ i ∈ ((cfg0.win 11).blk t).view.set := by
  have hi0 : (i 0).val < 100000 := (i 0).isLt
  have hi1 : (i 1).val < 64 := (i 1).isLt
  have hN : cfg0.N = 100 := N_0
  refine ⟨⟨(i 0).val / 1000, by omega⟩, flush0_11 _, ?_⟩
  rw [mem_blk0]
  obtain ⟨-, -, -, -, h0, h1, -⟩ := idx_facts0 ⟨(i 0).val / 1000, by omega⟩
  intro a
  match a with
  | ⟨0, _⟩ => show win0_11.index _ (0 : Fin 2) * 1000 ≤ (i 0).val ∧ (i 0).val < win0_11.index _ (0 : Fin 2) * 1000 + 1000; rw [h0]; show (i 0).val / 1000 * 1000 ≤ (i 0).val ∧ (i 0).val < (i 0).val / 1000 * 1000 + 1000; omega
  | ⟨1, _⟩ => show win0_11.index _ (1 : Fin 2) * 64 ≤ (i 1).val ∧ (i 1).val < win0_11.index _ (1 : Fin 2) * 64 + 64; rw [h1]; omega

/-! ## The second launch: 20 grid points, blocks of 1000 rows of the 20000 -/

/-- The block indices of the launch's windows, decided over its 20 grid points: the two row windows and the
    result window are at block (t, 0); every other window stays at block 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_11.index t (0 : Fin 2) = t.val ∧ win1_11.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_7.index t (0 : Fin 2) = 0 ∧ win1_7.index t (1 : Fin 2) = 0
    ∧ win1_4.index t (0 : Fin 1) = 0 ∧ win1_5.index t (0 : Fin 1) = 0 ∧ win1_6.index t (0 : Fin 1) = 0
    ∧ win1_8.index t (0 : Fin 1) = 0 ∧ win1_9.index t (0 : Fin 1) = 0 ∧ win1_10.index t (0 : Fin 1) = 0 :=
  (by decide +kernel : ∀ t : Fin grid1.N, _)

theorem tlt1 (t : Fin cfg1.N) : t.val < 20 := by have := t.isLt; have h : cfg1.N = 20 := N_1; omega

/-- Row `r` of the embedding window's block at point `t` is row `1000 t + r` of the array. -/
theorem blk1_0 (c : Dev nD) (t : Fin cfg1.N) (r : Fin 1000) (k : Fin 128) :
    (iblk1 V c 0 t : Vec Ideal S1000x128 .f32) (ix2 r k) = (V c main_arg4 : S20000x128.Idx → EReal) (ix2 ⟨t.val * 1000 + r.val, by have := tlt1 t; omega⟩ k) := by
  obtain ⟨h0, h1, -⟩ := idx_facts1 t
  unfold iblk1
  rw [View.read_apply]
  show V c main_arg4 _ = V c main_arg4 _
  congr 1
  funext a
  apply Fin.ext
  match a with
  | ⟨0, _⟩ => show win1_0.index t 0 * 1000 + 1 * r.val = t.val * 1000 + r.val; rw [h0]; omega
  | ⟨1, _⟩ => show win1_0.index t 1 * 128 + 1 * k.val = k.val; rw [h1]; omega

/-- Row `r` of the message window's block at point `t` is row `1000 t + r` of the array. -/
theorem blk1_1 (c : Dev nD) (t : Fin cfg1.N) (r : Fin 1000) (k : Fin 128) :
    (iblk1 V c 1 t : Vec Ideal S1000x128 .f32) (ix2 r k) = (V c main_v41 : S20000x128.Idx → EReal) (ix2 ⟨t.val * 1000 + r.val, by have := tlt1 t; omega⟩ k) := by
  obtain ⟨-, -, h0, h1, -⟩ := idx_facts1 t
  unfold iblk1
  rw [View.read_apply]
  show V c main_v41 _ = V c main_v41 _
  congr 1
  funext a
  apply Fin.ext
  match a with
  | ⟨0, _⟩ => show win1_1.index t 0 * 1000 + 1 * r.val = t.val * 1000 + r.val; rw [h0]; omega
  | ⟨1, _⟩ => show win1_1.index t 1 * 128 + 1 * k.val = k.val; rw [h1]; omega

/-- The first half of the first matrix is staged whole at every point. -/
theorem blk1_2 (c : Dev nD) (t : Fin cfg1.N) (k : Fin 128) (j : Fin 128) :
    (iblk1 V c 2 t : Vec Ideal S128x128 .f32) (ix2 k j) = (V c main_v45 : S128x128.Idx → EReal) (ix2 k j) := by
  obtain ⟨-, -, -, -, -, -, h0, h1, -⟩ := idx_facts1 t
  unfold iblk1
  rw [View.read_apply]
  show V c main_v45 _ = V c main_v45 _
  congr 1
  funext a
  apply Fin.ext
  match a with
  | ⟨0, _⟩ => show win1_2.index t 0 * 128 + 1 * k.val = k.val; rw [h0]; omega
  | ⟨1, _⟩ => show win1_2.index t 1 * 128 + 1 * j.val = j.val; rw [h1]; omega

/-- The second half of the first matrix is staged whole at every point. -/
theorem blk1_3 (c : Dev nD) (t : Fin cfg1.N) (k : Fin 128) (j : Fin 128) :
    (iblk1 V c 3 t : Vec Ideal S128x128 .f32) (ix2 k j) = (V c main_v46 : S128x128.Idx → EReal) (ix2 k j) := by
  obtain ⟨-, -, -, -, -, -, -, -, h0, h1, -⟩ := idx_facts1 t
  unfold iblk1
  rw [View.read_apply]
  show V c main_v46 _ = V c main_v46 _
  congr 1
  funext a
  apply Fin.ext
  match a with
  | ⟨0, _⟩ => show win1_3.index t 0 * 128 + 1 * k.val = k.val; rw [h0]; omega
  | ⟨1, _⟩ => show win1_3.index t 1 * 128 + 1 * j.val = j.val; rw [h1]; omega

/-- The second matrix is staged whole at every point. -/
theorem blk1_7 (c : Dev nD) (t : Fin cfg1.N) (k : Fin 128) (j : Fin 64) :
    (iblk1 V c 7 t : Vec Ideal S128x64 .f32) (ix2 k j) = (V c main_arg17 : S128x64.Idx → EReal) (ix2 k j) := by
  obtain ⟨-, -, -, -, -, -, -, -, -, -, h0, h1, -⟩ := idx_facts1 t
  unfold iblk1
  rw [View.read_apply]
  show V c main_arg17 _ = V c main_arg17 _
  congr 1
  funext a
  apply Fin.ext
  match a with
  | ⟨0, _⟩ => show win1_7.index t 0 * 128 + 1 * k.val = k.val; rw [h0]; omega
  | ⟨1, _⟩ => show win1_7.index t 1 * 64 + 1 * j.val = j.val; rw [h1]; omega

/-- The first bias is staged whole at every point. -/
theorem blk1_4 (c : Dev nD) (t : Fin cfg1.N) (k : Fin 128) :
    (iblk1 V c 4 t : Vec Ideal S128 .f32) (ix1 k) = (V c main_arg14 : S128.Idx → EReal) (ix1 k) := by
  obtain ⟨-, -, -, -, -, -, -, -, -, -, -, -, h0, -⟩ := idx_facts1 t
  unfold iblk1
  rw [View.read_apply]
  show V c main_arg14 _ = V c main_arg14 _
  congr 1
  funext a
  apply Fin.ext
  match a with
  | ⟨0, _⟩ => show win1_4.index t 0 * 128 + 1 * k.val = k.val; rw [h0]; omega

/-- The first scale is staged whole at every point. -/
theorem blk1_5 (c : Dev nD) (t : Fin cfg1.N) (k : Fin 128) :
    (iblk1 V c 5 t : Vec Ideal S128 .f32) (ix1 k) = (V c main_arg15 : S128.Idx → EReal) (ix1 k) := by
  obtain ⟨-, -, -, -, -, -, -, -, -, -, -, -, -, h0, -⟩ := idx_facts1 t
  unfold iblk1
  rw [View.read_apply]
  show V c main_arg15 _ = V c main_arg15 _
  congr 1
  funext a
  apply Fin.ext
  match a with
  | ⟨0, _⟩ => show win1_5.index t 0 * 128 + 1 * k.val = k.val; rw [h0]; omega

/-- The first shift is staged whole at every point. -/
theorem blk1_6 (c : Dev nD) (t : Fin cfg1.N) (k : Fin 128) :
    (iblk1 V c 6 t : Vec Ideal S128 .f32) (ix1 k) = (V c main_arg16 : S128.Idx → EReal) (ix1 k) := by
  obtain ⟨-, -, -, -, -, -, -, -, -, -, -, -, -, -, h0, -⟩ := idx_facts1 t
  unfold iblk1
  rw [View.read_apply]
  show V c main_arg16 _ = V c main_arg16 _
  congr 1
  funext a
  apply Fin.ext
  match a with
  | ⟨0, _⟩ => show win1_6.index t 0 * 128 + 1 * k.val = k.val; rw [h0]; omega

/-- The second bias is staged whole at every point. -/
theorem blk1_8 (c : Dev nD) (t : Fin cfg1.N) (k : Fin 64) :
    (iblk1 V c 8 t : Vec Ideal S64 .f32) (ix1 k) = (V c main_arg18 : S64.Idx → EReal) (ix1 k) := by
  obtain ⟨-, -, -, -, -, -, -, -, -, -, -, -, -, -, -, h0, -⟩ := idx_facts1 t
  unfold iblk1
  rw [View.read_apply]
  show V c main_arg18 _ = V c main_arg18 _
  congr 1
  funext a
  apply Fin.ext
  match a with
  | ⟨0, _⟩ => show win1_8.index t 0 * 64 + 1 * k.val = k.val; rw [h0]; omega

/-- The second scale is staged whole at every point. -/
theorem blk1_9 (c : Dev nD) (t : Fin cfg1.N) (k : Fin 64) :
    (iblk1 V c 9 t : Vec Ideal S64 .f32) (ix1 k) = (V c main_arg19 : S64.Idx → EReal) (ix1 k) := by
  obtain ⟨-, -, -, -, -, -, -, -, -, -, -, -, -, -, -, -, h0, -⟩ := idx_facts1 t
  unfold iblk1
  rw [View.read_apply]
  show V c main_arg19 _ = V c main_arg19 _
  congr 1
  funext a
  apply Fin.ext
  match a with
  | ⟨0, _⟩ => show win1_9.index t 0 * 64 + 1 * k.val = k.val; rw [h0]; omega

/-- The second shift is staged whole at every point. -/
theorem blk1_10 (c : Dev nD) (t : Fin cfg1.N) (k : Fin 64) :
    (iblk1 V c 10 t : Vec Ideal S64 .f32) (ix1 k) = (V c main_arg20 : S64.Idx → EReal) (ix1 k) := by
  obtain ⟨-, -, -, -, -, -, -, -, -, -, -, -, -, -, -, -, -, h0⟩ := idx_facts1 t
  unfold iblk1
  rw [View.read_apply]
  show V c main_arg20 _ = V c main_arg20 _
  congr 1
  funext a
  apply Fin.ext
  match a with
  | ⟨0, _⟩ => show win1_10.index t 0 * 64 + 1 * k.val = k.val; rw [h0]; omega

/-- Entry `(r, j)` of the result window's block at point `t` is entry `(1000 t + r, j)` of the result array. -/
theorem emb1_11 (t : Fin cfg1.N) (r : Fin 1000) (j : Fin 64) :
    ((cfg1.win 11).blk t).view.emb (ix2 r j : S1000x64.Idx) = (ix2 ⟨t.val * 1000 + r.val, by have := tlt1 t; omega⟩ j : S20000x64.Idx) := by
  obtain ⟨-, -, -, -, h0, h1, -⟩ := idx_facts1 t
  funext a
  apply Fin.ext
  match a with
  | ⟨0, _⟩ => show win1_11.index t 0 * 1000 + 1 * r.val = t.val * 1000 + r.val; rw [h0]; omega
  | ⟨1, _⟩ => show win1_11.index t 1 * 64 + 1 * j.val = j.val; rw [h1]; omega

/-- An index of the result array is in point `t`'s block iff each coordinate is in the block's range on its axis. -/
theorem mem_blk1 (t : Fin cfg1.N) (i : S20000x64.Idx) :
    i ∈ ((cfg1.win 11).blk t).view.set ↔ ∀ a : Fin 2, win1_11.index t a * S1000x64.size a ≤ (i a).val ∧ (i a).val < win1_11.index t a * S1000x64.size a + S1000x64.size a := by
  show i ∈ ((View.whole main_v47).slice (win1_11.rect t)).set ↔ _
  rw [View.set_slice_whole, Rect.mem_set_unit]
  exact Iff.rfl

/-- Every index of the result array is in the block of the point its row falls to: the 20 blocks of 1000 rows tile the array. -/
theorem cover1 (i : S20000x64.Idx) : ∃ t : Fin cfg1.N, (cfg1.win 11).flush t = true ∧ i ∈ ((cfg1.win 11).blk t).view.set := by
  have hi0 : (i 0).val < 20000 := (i 0).isLt
  have hi1 : (i 1).val < 64 := (i 1).isLt
  have hN : cfg1.N = 20 := N_1
  refine ⟨⟨(i 0).val / 1000, by omega⟩, flush1_11 _, ?_⟩
  rw [mem_blk1]
  obtain ⟨-, -, -, -, h0, h1, -⟩ := idx_facts1 ⟨(i 0).val / 1000, by omega⟩
  intro a
  match a with
  | ⟨0, _⟩ => show win1_11.index _ (0 : Fin 2) * 1000 ≤ (i 0).val ∧ (i 0).val < win1_11.index _ (0 : Fin 2) * 1000 + 1000; rw [h0]; show (i 0).val / 1000 * 1000 ≤ (i 0).val ∧ (i 0).val < (i 0).val / 1000 * 1000 + 1000; omega
  | ⟨1, _⟩ => show win1_11.index _ (1 : Fin 2) * 64 ≤ (i 1).val ∧ (i 1).val < win1_11.index _ (1 : Fin 2) * 64 + 64; rw [h1]; omega

end Cert.KernelIdeal.BlockReads

end
-- ==== Proof.Spec.lean ====
/-
  The two-layer perceptron with layer normalisation, one ROW at a time, on the extended reals.

  A row of the input is a pair of 128-vectors `x` (the node's own embedding) and `m` (its aggregated message).
  The hidden row is `h = [x, m] · w1 + b1` with `w1` a 256 × 128 matrix; it is normalised
  (`ln`: subtract the mean, multiply by the reciprocal square root of the variance plus a small constant, scale, shift),
  clamped below at zero, multiplied by the 128 × 64 matrix `w2`, shifted by `b2` and normalised again.

  The product with the concatenated row can be taken in two halves: the sum over the 256 contraction
  indices is the sum over the first 128 plus the sum over the last 128 (`sum_halves`). This is the only law the
  two readings of the perceptron differ by, and it holds in every commutative monoid, so at the infinities too.
-/
import Idealize.ShloMosaic.PureOps.Ideal
import Idealize.ShloMosaic.Lib.ValueIdx
import Mathlib.Algebra.BigOperators.Fin

noncomputable section

namespace Cert.MlpSpec

open Idealize.ShloMosaic

/-- The divisor of a mean over 128 entries, the f32 word of 128. -/
abbrev c128 : EReal := Ideal.ofBits .f32 0x43000000#32
/-- The divisor of a mean over 64 entries, the f32 word of 64. -/
abbrev c64 : EReal := Ideal.ofBits .f32 0x42800000#32
/-- The constant added to a variance, the f32 word nearest 1e-5. -/
abbrev eps : EReal := Ideal.ofBits .f32 0x3727C5AC#32
/-- The floor of the clamp, the f32 word of zero. -/
abbrev zero : EReal := Ideal.ofBits .f32 0x00000000#32

/-- The mean of a row with divisor `c`. -/
def mean {n : ℕ} (c : EReal) (x : Fin n → EReal) : EReal := Ideal.div (∑ k, x k) c

/-- The variance of a row with divisor `c`: the mean of the squared deviations. -/
def var {n : ℕ} (c : EReal) (x : Fin n → EReal) : EReal :=
  Ideal.div (∑ k, (x k - mean c x) * (x k - mean c x)) c

/-- A normalised row before the shift: deviation times reciprocal root of (variance + eps), times the scale. -/
def lnScale {n : ℕ} (c : EReal) (x g : Fin n → EReal) (j : Fin n) : EReal :=
  (x j - mean c x) * Ideal.rsqrt (var c x + eps) * g j

/-- A normalised row: scaled, then shifted. -/
def ln {n : ℕ} (c : EReal) (x g b : Fin n → EReal) (j : Fin n) : EReal :=
  lnScale c x g j + b j

/-- The first 128 of 256 contraction indices. -/
abbrev lo (k : Fin 128) : Fin 256 := ⟨k.val, by omega⟩
/-- The last 128 of 256 contraction indices. -/
abbrev hi (k : Fin 128) : Fin 256 := ⟨128 + k.val, by omega⟩

/-- The hidden row from the two halves of the input row and the two halves of the first matrix. -/
def hiddenSplit (x m : Fin 128 → EReal) (wa wb : Fin 128 → Fin 128 → EReal) (b1 : Fin 128 → EReal) (j : Fin 128) : EReal :=
  (∑ k, x k * wa k j) + (∑ k, m k * wb k j) + b1 j

/-- The hidden row from the concatenated input row and the whole first matrix. -/
def hiddenCat (xm : Fin 256 → EReal) (w1 : Fin 256 → Fin 128 → EReal) (b1 : Fin 128 → EReal) (j : Fin 128) : EReal :=
  (∑ k, xm k * w1 k j) + b1 j

/-- From a hidden row to the output row: normalise, clamp at zero, second matrix, shift, normalise. -/
def out (h g1 be1 : Fin 128 → EReal) (w2 : Fin 128 → Fin 64 → EReal) (b2 g2 be2 : Fin 64 → EReal) : Fin 64 → EReal :=
  ln c64 (fun j => (∑ k, max (ln c128 h g1 be1 k) zero * w2 k j) + b2 j) g2 be2

/-- The perceptron on one row, the first product taken in two halves. -/
def mlp (x m : Fin 128 → EReal) (w1 : Fin 256 → Fin 128 → EReal) (b1 g1 be1 : Fin 128 → EReal)
    (w2 : Fin 128 → Fin 64 → EReal) (b2 g2 be2 : Fin 64 → EReal) : Fin 64 → EReal :=
  out (hiddenSplit x m (fun k j => w1 (lo k) j) (fun k j => w1 (hi k) j) b1) g1 be1 w2 b2 g2 be2

/-- A sum over 256 indices is the sum over the first 128 plus the sum over the last 128. -/
theorem sum_halves {M : Type*} [AddCommMonoid M] (f : Fin 256 → M) :
    ∑ k, f k = (∑ k : Fin 128, f (lo k)) + ∑ k : Fin 128, f (hi k) :=
  Fin.sum_univ_add (a := 128) (b := 128) f

/-- The hidden row of a concatenated input is the hidden row of its halves. -/
theorem hiddenCat_eq (xm : Fin 256 → EReal) (x m : Fin 128 → EReal) (w1 : Fin 256 → Fin 128 → EReal) (b1 : Fin 128 → EReal)
    (hx : ∀ k, xm (lo k) = x k) (hm : ∀ k, xm (hi k) = m k) :
    hiddenCat xm w1 b1 = hiddenSplit x m (fun k j => w1 (lo k) j) (fun k j => w1 (hi k) j) b1 := by
  funext j
  unfold hiddenCat hiddenSplit
  rw [sum_halves]
  simp only [hx, hm]

/-- So the perceptron read with the concatenated row is the perceptron read in halves. -/
theorem out_hiddenCat (xm : Fin 256 → EReal) (x m : Fin 128 → EReal) (w1 : Fin 256 → Fin 128 → EReal) (b1 g1 be1 : Fin 128 → EReal)
    (w2 : Fin 128 → Fin 64 → EReal) (b2 g2 be2 : Fin 64 → EReal)
    (hx : ∀ k, xm (lo k) = x k) (hm : ∀ k, xm (hi k) = m k) :
    out (hiddenCat xm w1 b1) g1 be1 w2 b2 g2 be2 = mlp x m w1 b1 g1 be1 w2 b2 g2 be2 := by
  unfold mlp
  rw [hiddenCat_eq xm x m w1 b1 hx hm]

end Cert.MlpSpec

end
-- ==== Proof.KernelPayload.lean ====
/-
  The kernel body's arithmetic, read at one index of its output block.

  The body works on a block of 1000 rows. Row by row it is the two-layer perceptron with layer normalisation:
  the two halves of the input row are multiplied with the two halves of the first matrix and added, the bias
  is added, the row is normalised over its 128 entries, clamped below at zero, multiplied with the second
  matrix, shifted and normalised over its 64 entries. Every operation of the body is either elementwise, a
  sum along the row (a lane reduction, or the contraction of a matrix product), or a re-layout that repeats a
  row vector down the rows or a column vector along the lanes. Read at the index (r, j) each of them only
  looks at row r of its operands, so the whole body at (r, j) is the perceptron of row r at entry j.

  The lemmas are layered the way the body is: the re-layouts at explicit coordinates, a lane sum, a matrix
  product into a zero accumulator, one layer normalisation of a block, and then the two halves of the body.
-/
import proofs.«178970_j15917148799744_1_alg».proof.Proof.Gen.KernelIdeal.Skeleton
import proofs.«178970_j15917148799744_1_alg».proof.Proof.Spec
import Idealize.ShloMosaic.Lib.ValueLayout
import Idealize.ShloMosaic.PureOps.Ideal.Laws

noncomputable section

namespace Cert.KernelPayload

open Idealize.ShloMosaic Idealize.ShloMosaic.ValueIdx Cert.KernelIdeal Cert.KernelIdeal.Gen
open scoped BigOperators

/-! ## The re-layouts at explicit coordinates -/

/-- A vector of `b` entries laid out as one row and repeated down `a` rows reads, at `(p, c)`, its entry `c`. -/
theorem rowVec_apply {α : Type} {a b : ℕ} (v : (⟨1, ![b]⟩ : Shape).Idx → α)
    (h₁ : (⟨1, ![b]⟩ : Shape).ShapeCasts ⟨2, ![1, b]⟩) (h₂ : (⟨2, ![1, b]⟩ : Shape).Broadcasts ⟨2, ![a, b]⟩)
    (p : Fin a) (c : Fin b) :
    broadcastTo ⟨2, ![a, b]⟩ (shapeCast ⟨2, ![1, b]⟩ v h₁) h₂ (ix2 p c) = v (ix1 c) := by
  rw [broadcastTo_1b_ab_apply, shapeCast_a_1a_apply]

/-- A vector of `a` entries laid out as one column reads, at `(p, u)`, its entry `p`. -/
theorem shapeCast_a_a1_apply {α : Type} {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- One column repeated along `b` lanes (`1 < b`) reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A sum along the lanes -/

/-- The sum of an `a × b` block along its lanes reads, at row `p`, the sum of the row's entries: the index the
reduction inserts the lane `k` into is `(p, k)`. -/
theorem reduceAdd_lane_apply {a b : ℕ} (v : (⟨2, ![a, b]⟩ : Shape).Idx → EReal)
    (h : (⟨2, ![a, b]⟩ : Shape).Reduces [1] ⟨1, ![a]⟩) (p : Fin a) :
    Ideal.reduceAdd h v (ix1 p) = ∑ k : Fin b, v (ix2 p k) := by
  refine (Ideal.reduceAdd_single h v (ix1 p)).trans ?_
  refine Finset.sum_congr rfl fun k _ => congrArg v ?_
  funext ax
  match ax with
  | ⟨0, _⟩ => exact Fin.ext rfl
  | ⟨1, _⟩ => exact Fin.ext rfl

/-- So the lane reduction of a block, as the body writes it, is that sum. -/
theorem laneSum_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction (F := Ideal) .add [1] ⟨1, ![a]⟩ v 0x00000000#32 h hφ hacc (ix1 p) = ∑ k : Fin b, v (ix2 p k) :=
  reduceAdd_lane_apply v h p

/-! ## A matrix product into a zero accumulator -/

/-! The operand indices of the two products: at output index `i` and contraction position `q` the left operand is
read at `(i 0, q)` and the right one at `(q, i 1)`. -/
theorem dot128_lhs0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem dot128_lhs1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
theorem dot128_rhs0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
theorem dot128_rhs1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

theorem dot64_lhs0 (i : S1000x64.Idx) (q : dot_S1000x128_S128x64_S1000x64_1_0_0_1_n_n.contr.Idx) :
    (dot_S1000x128_S128x64_S1000x64_1_0_0_1_n_n.lhsIdx i q 0).val = (i 0).val := by
  unfold DotDims.lhsIdx
  rw [dif_neg (show ¬(0 : Fin S1000x128.rank) ∈ dot_S1000x128_S128x64_S1000x64_1_0_0_1_n_n.lhsBatch by decide), dif_pos (show (0 : Fin S1000x128.rank) ∈ dot_S1000x128_S128x64_S1000x64_1_0_0_1_n_n.lhsNonContracting by decide)]
  rfl
theorem dot64_lhs1 (i : S1000x64.Idx) (q : dot_S1000x128_S128x64_S1000x64_1_0_0_1_n_n.contr.Idx) :
    (dot_S1000x128_S128x64_S1000x64_1_0_0_1_n_n.lhsIdx i q 1).val = (q ⟨0, by decide⟩).val :=
  dot_S1000x128_S128x64_S1000x64_1_0_0_1_n_n.lhsIdx_val_of_single rfl i q
theorem dot64_rhs0 (i : S1000x64.Idx) (q : dot_S1000x128_S128x64_S1000x64_1_0_0_1_n_n.contr.Idx) :
    (dot_S1000x128_S128x64_S1000x64_1_0_0_1_n_n.rhsIdx i q 0).val = (q ⟨0, by decide⟩).val :=
  dot_S1000x128_S128x64_S1000x64_1_0_0_1_n_n.rhsIdx_val_of_single rfl i q
theorem dot64_rhs1 (i : S1000x64.Idx) (q : dot_S1000x128_S128x64_S1000x64_1_0_0_1_n_n.contr.Idx) :
    (dot_S1000x128_S128x64_S1000x64_1_0_0_1_n_n.rhsIdx i q 1).val = (i 1).val := by
  unfold DotDims.rhsIdx
  rw [dif_neg (show ¬(1 : Fin S128x64.rank) ∈ dot_S1000x128_S128x64_S1000x64_1_0_0_1_n_n.rhsBatch by decide), dif_pos (show (1 : Fin S128x64.rank) ∈ dot_S1000x128_S128x64_S1000x64_1_0_0_1_n_n.rhsNonContracting by decide)]
  rfl

/-- The product of a `1000 × 128` block with a `128 × 128` matrix, accumulated into zeros, reads at `(r, j)` the
sum over the 128 contraction positions of row `r` of the block times column `j` of the matrix. -/
theorem matmul128_apply {φ₁ φ₂ : FTy} (a : FVec Ideal S1000x128 φ₁) (b : FVec Ideal S128x128 φ₂) (r : Fin 1000) (j : Fin 128) :
    matmul dot_S1000x128_S128x128_S1000x128_1_0_0_1_n_n none a b (constant S1000x128 .f32 0x00000000#32) (ix2 r j)
      = ∑ k : Fin 128, a (ix2 r k) * b (ix2 k j) := by
  simp only [matmul]
  rw [Ideal.matmul_constant_zero_apply, ← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 r j) ((contrEquiv1 dot_S1000x128_S128x128_S1000x128_1_0_0_1_n_n 128 rfl rfl).symm k) = ix2 r k := funext fun ax => Fin.ext (by
    match ax with
    | ⟨0, _⟩ => exact dot128_lhs0 _ _
    | ⟨1, _⟩ => exact (dot128_lhs1 _ _).trans hk)
  have er : dot_S1000x128_S128x128_S1000x128_1_0_0_1_n_n.rhsIdx (ix2 r j) ((contrEquiv1 dot_S1000x128_S128x128_S1000x128_1_0_0_1_n_n 128 rfl rfl).symm k) = ix2 k j := funext fun ax => Fin.ext (by
    match ax with
    | ⟨0, _⟩ => exact (dot128_rhs0 _ _).trans hk
    | ⟨1, _⟩ => exact dot128_rhs1 _ _)
  rw [el, er]

/-- The same for the `128 × 64` matrix. -/
theorem matmul64_apply {φ₁ φ₂ : FTy} (a : FVec Ideal S1000x128 φ₁) (b : FVec Ideal S128x64 φ₂) (r : Fin 1000) (j : Fin 64) :
    matmul dot_S1000x128_S128x64_S1000x64_1_0_0_1_n_n none a b (constant S1000x64 .f32 0x00000000#32) (ix2 r j)
      = ∑ k : Fin 128, a (ix2 r k) * b (ix2 k j) := by
  simp only [matmul]
  rw [Ideal.matmul_constant_zero_apply, ← Equiv.sum_comp (contrEquiv1 dot_S1000x128_S128x64_S1000x64_1_0_0_1_n_n 128 rfl rfl).symm]
  refine Finset.sum_congr rfl fun k _ => ?_
  have hk := contrEquiv1_symm_val dot_S1000x128_S128x64_S1000x64_1_0_0_1_n_n 128 rfl rfl k
  have el : dot_S1000x128_S128x64_S1000x64_1_0_0_1_n_n.lhsIdx (ix2 r j) ((contrEquiv1 dot_S1000x128_S128x64_S1000x64_1_0_0_1_n_n 128 rfl rfl).symm k) = ix2 r k := funext fun ax => Fin.ext (by
    match ax with
    | ⟨0, _⟩ => exact dot64_lhs0 _ _
    | ⟨1, _⟩ => exact (dot64_lhs1 _ _).trans hk)
  have er : dot_S1000x128_S128x64_S1000x64_1_0_0_1_n_n.rhsIdx (ix2 r j) ((contrEquiv1 dot_S1000x128_S128x64_S1000x64_1_0_0_1_n_n 128 rfl rfl).symm k) = ix2 k j := funext fun ax => Fin.ext (by
    match ax with
    | ⟨0, _⟩ => exact (dot64_rhs0 _ _).trans hk
    | ⟨1, _⟩ => exact dot64_rhs1 _ _)
  rw [el, er]

/-! ## One layer normalisation of a block -/

/-- A reciprocal square root at an index is the reciprocal square root of the element. -/
theorem rsqrt_apply {s : Shape} {φ : FTy} (a : FVec Ideal s φ) (i : s.Idx) : rsqrt a i = Ideal.rsqrt (a i) := rfl

/-- A scalar constant at the ideal values is the extended real its word encodes. -/
theorem scalar_ofBits (φ : FTy) (b : BitVec φ.bits) : Scalar.ofBits (F := Ideal) φ b = Ideal.ofBits φ b := rfl

/-- The normalisation of an `a × b` block `v` along its lanes, up to the scale `g`: the row sums divided by the
word `cw`, the deviations, their squares' row sums divided by `cw`, plus the word `ew`, the reciprocal root, times the
deviation, times `g` repeated down the rows. Read at `(p, c)` it is the normalisation of row `p` at entry `c`. -/
theorem lnScaleBlock_apply {a b : ℕ} (v : FVec Ideal ⟨2, ![a, b]⟩ .f32) (g : Vec Ideal ⟨1, ![b]⟩ .f32) (cw : BitVec 32)
    (hR : (⟨2, ![a, b]⟩ : Shape).Reduces [1] ⟨1, ![a]⟩) (hφ : FKind.Formats .f32)
    (hacc : (0x00000000#32 : BitVec 32) = FKind.add.neutral .f32 hφ)
    (hS : (⟨1, ![a]⟩ : Shape).ShapeCasts ⟨2, ![a, 1]⟩) (hB : (⟨2, ![a, 1]⟩ : Shape).Broadcasts ⟨2, ![a, b]⟩)
    (hS₁ : (⟨1, ![b]⟩ : Shape).ShapeCasts ⟨2, ![1, b]⟩) (hB₁ : (⟨2, ![1, b]⟩ : Shape).Broadcasts ⟨2, ![a, b]⟩)
    (p : Fin a) (c : Fin b) :
    mulf
      (mulf
        (subf v (broadcastTo ⟨2, ![a, b]⟩
          (divf (shapeCast ⟨2, ![a, 1]⟩ (multiReduction (F := Ideal) .add [1] ⟨1, ![a]⟩ v 0x00000000#32 hR hφ hacc) hS)
            (broadcast ⟨2, ![a, 1]⟩ (Scalar.ofBits .f32 cw))) hB))
        (broadcastTo ⟨2, ![a, b]⟩
          (rsqrt (addf
            (divf
              (shapeCast ⟨2, ![a, 1]⟩
                (multiReduction (F := Ideal) .add [1] ⟨1, ![a]⟩
                  (mulf
                    (subf v (broadcastTo ⟨2, ![a, b]⟩
                      (divf (shapeCast ⟨2, ![a, 1]⟩ (multiReduction (F := Ideal) .add [1] ⟨1, ![a]⟩ v 0x00000000#32 hR hφ hacc) hS)
                        (broadcast ⟨2, ![a, 1]⟩ (Scalar.ofBits .f32 cw))) hB))
                    (subf v (broadcastTo ⟨2, ![a, b]⟩
                      (divf (shapeCast ⟨2, ![a, 1]⟩ (multiReduction (F := Ideal) .add [1] ⟨1, ![a]⟩ v 0x00000000#32 hR hφ hacc) hS)
                        (broadcast ⟨2, ![a, 1]⟩ (Scalar.ofBits .f32 cw))) hB)))
                  0x00000000#32 hR hφ hacc) hS)
              (broadcast ⟨2, ![a, 1]⟩ (Scalar.ofBits .f32 cw)))
            (broadcast ⟨2, ![a, 1]⟩ (Scalar.ofBits .f32 0x3727C5AC#32)))) hB))
      (broadcastTo ⟨2, ![a, b]⟩ (shapeCast ⟨2, ![1, b]⟩ g hS₁) hB₁) (ix2 p c)
      = Cert.MlpSpec.lnScale (Ideal.ofBits .f32 cw) (fun k => v (ix2 p k)) (fun k => g (ix1 k)) c := by
  simp only [mulf_apply, subf_apply, addf_apply, divf_apply, rsqrt_apply, broadcast_apply, scalar_ofBits,
    broadcastTo_a1_ab_apply, shapeCast_a_a1_apply, rowVec_apply, multiReduction, Ideal.reduceAdd_def,
    reduceAdd_lane_apply]
  rfl

/-! ## The first half of the body: the hidden block, normalised up to its scale -/

/-- The hidden block — the two half products added, plus the bias repeated down the rows — reads, at `(r, k)`, the
hidden row of row `r` at entry `k`. The changes of format are the identity on the extended reals and the
shape casts are to the same shape. -/
theorem hidden_apply (x0 x1 : Vec Ideal S1000x128 .f32) (x2 x3 : Vec Ideal S128x128 .f32) (x4 : Vec Ideal S128 .f32)
    (hS : S1000x128.ShapeCasts S1000x128) (hS' : S128x128.ShapeCasts S128x128) (hS₁ : S128.ShapeCasts S1x128)
    (hB₁ : S1x128.Broadcasts S1000x128) (hlt : FTy.bits .bf16 < FTy.bits .f32) (r : Fin 1000) (k : Fin 128) :
    addf (F := Ideal)
      (addf
        (matmul dot_S1000x128_S128x128_S1000x128_1_0_0_1_n_n none (truncf .bf16 x0 hlt)
          (truncf .bf16 (shapeCast S128x128 x2 hS') hlt) (constant S1000x128 .f32 0x00000000#32))
        (matmul dot_S1000x128_S128x128_S1000x128_1_0_0_1_n_n none (truncf .bf16 (shapeCast S1000x128 x1 hS) hlt)
          (truncf .bf16 (shapeCast S128x128 x3 hS') hlt) (constant S1000x128 .f32 0x00000000#32)))
      (broadcastTo S1000x128 (shapeCast S1x128 x4 hS₁) hB₁) (ix2 r k)
      = Cert.MlpSpec.hiddenSplit (fun k => x0 (ix2 r k)) (fun k => x1 (ix2 r k)) (fun k j => x2 (ix2 k j))
          (fun k j => x3 (ix2 k j)) (fun k => x4 (ix1 k)) k := by
  rw [addf_apply, addf_apply, matmul128_apply, matmul128_apply, rowVec_apply]
  simp only [truncf_apply, shapeCast_self]
  rfl

/-- The first half of the body at `(r, k)`: the hidden row of row `r`, normalised over its 128 entries and scaled. -/
theorem k0_pay2_apply (x0 x1 : Vec Ideal S1000x128 .f32) (x2 x3 : Vec Ideal S128x128 .f32) (x4 x5 : Vec Ideal S128 .f32)
    (r : Fin 1000) (k : Fin 128) :
    k0_pay2 (F := Ideal) x0 x1 x2 x3 x4 x5 (ix2 r k)
      = Cert.MlpSpec.lnScale Cert.MlpSpec.c128
          (Cert.MlpSpec.hiddenSplit (fun k => x0 (ix2 r k)) (fun k => x1 (ix2 r k)) (fun k j => x2 (ix2 k j))
            (fun k j => x3 (ix2 k j)) (fun k => x4 (ix1 k)))
          (fun k => x5 (ix1 k)) k := by
  unfold k0_pay2
  exact (lnScaleBlock_apply (a := 1000) (b := 128) _ _ _ _ _ _ _ _ _ _ r k).trans
    (congrArg (fun h => Cert.MlpSpec.lnScale _ h _ k) (funext fun k' => hidden_apply x0 x1 x2 x3 x4 _ _ _ _ _ r k'))

/-! ## The second half of the body: shift, clamp, second product, bias, and the second normalisation -/

/-- The block the second normalisation is taken of — the scaled block plus the shift repeated down the rows, clamped
below at zero, times the second matrix, plus the bias repeated down the rows — reads, at `(r, j)`, the second
layer's row of row `r` at entry `j`. -/
theorem act_apply (v19 : Vec Ideal S128 .f32) (v40 : FVec Ideal S1000x128 .f32) (x7 : Vec Ideal S128x64 .f32)
    (x8 : Vec Ideal S64 .f32) (hS₁ : S128.ShapeCasts S1x128) (hB₁ : S1x128.Broadcasts S1000x128)
    (hS₂ : S64.ShapeCasts S1x64) (hB₂ : S1x64.Broadcasts S1000x64) (hlt : FTy.bits .bf16 < FTy.bits .f32)
    (r : Fin 1000) (j : Fin 64) :
    addf (F := Ideal)
      (matmul dot_S1000x128_S128x64_S1000x64_1_0_0_1_n_n none
        (truncf .bf16
          (maximumf (addf v40 (broadcastTo S1000x128 (shapeCast S1x128 v19 hS₁) hB₁))
            (broadcast S1000x128 (Scalar.ofBits .f32 0x00000000#32))) hlt)
        (truncf .bf16 x7 hlt) (constant S1000x64 .f32 0x00000000#32))
      (broadcastTo S1000x64 (shapeCast S1x64 x8 hS₂) hB₂) (ix2 r j)
      = (∑ k, max (v40 (ix2 r k) + v19 (ix1 k)) Cert.MlpSpec.zero * x7 (ix2 k j)) + x8 (ix1 j) := by
  rw [addf_apply, matmul64_apply, rowVec_apply]
  simp only [truncf_apply, maximumf_apply, addf_apply, rowVec_apply, broadcast_apply, scalar_ofBits]

/-- The second half of the body at `(r, j)`, over any block `v40` it is given: the second layer's row of row `r`,
normalised over its 64 entries, scaled and shifted. -/
theorem k0_pay1_apply (v19 : Vec Ideal S128 .f32) (v40 : FVec Ideal S1000x128 .f32) (x7 : Vec Ideal S128x64 .f32)
    (x8 x9 x10 : Vec Ideal S64 .f32) (r : Fin 1000) (j : Fin 64) :
    k0_pay1 (F := Ideal) v19 v40 x7 x8 x9 x10 (ix2 r j)
      = Cert.MlpSpec.ln Cert.MlpSpec.c64
          (fun j => (∑ k, max (v40 (ix2 r k) + v19 (ix1 k)) Cert.MlpSpec.zero * x7 (ix2 k j)) + x8 (ix1 j))
          (fun j => x9 (ix1 j)) (fun j => x10 (ix1 j)) j := by
  unfold k0_pay1
  refine ((addf_apply _ _ _).trans (congrArg₂ (· + ·)
    (lnScaleBlock_apply (a := 1000) (b := 64) _ _ _ _ _ _ _ _ _ _ r j) (rowVec_apply _ _ _ r j))).trans ?_
  unfold Cert.MlpSpec.ln
  exact congrArg (fun h => Cert.MlpSpec.lnScale _ h _ j + _)
    (funext fun j' => act_apply v19 v40 x7 x8 _ _ _ _ _ r j')

/-! ## The whole body -/

/-- The body at `(r, j)` is the perceptron's output row of row `r` at entry `j`, the hidden row taken in halves. -/
theorem pay0_apply (x0 x1 : Vec Ideal S1000x128 .f32) (x2 x3 : Vec Ideal S128x128 .f32) (x4 x5 x6 : Vec Ideal S128 .f32)
    (x7 : Vec Ideal S128x64 .f32) (x8 x9 x10 : Vec Ideal S64 .f32) (r : Fin 1000) (j : Fin 64) :
    k0_pay1 (F := Ideal) x6 (k0_pay2 (F := Ideal) x0 x1 x2 x3 x4 x5) x7 x8 x9 x10 (ix2 r j)
      = Cert.MlpSpec.out
          (Cert.MlpSpec.hiddenSplit (fun k => x0 (ix2 r k)) (fun k => x1 (ix2 r k)) (fun k j => x2 (ix2 k j))
            (fun k j => x3 (ix2 k j)) (fun k => x4 (ix1 k)))
          (fun k => x5 (ix1 k)) (fun k => x6 (ix1 k)) (fun k j => x7 (ix2 k j)) (fun j => x8 (ix1 j))
          (fun j => x9 (ix1 j)) (fun j => x10 (ix1 j)) j := by
  rw [k0_pay1_apply]
  simp only [k0_pay2_apply]
  rfl

/-- The second call's body is the same text. -/
theorem pay1_apply (x0 x1 : Vec Ideal S1000x128 .f32) (x2 x3 : Vec Ideal S128x128 .f32) (x4 x5 x6 : Vec Ideal S128 .f32)
    (x7 : Vec Ideal S128x64 .f32) (x8 x9 x10 : Vec Ideal S64 .f32) (r : Fin 1000) (j : Fin 64) :
    k1_pay1 (F := Ideal) x6 (k1_pay2 (F := Ideal) x0 x1 x2 x3 x4 x5) x7 x8 x9 x10 (ix2 r j)
      = Cert.MlpSpec.out
          (Cert.MlpSpec.hiddenSplit (fun k => x0 (ix2 r k)) (fun k => x1 (ix2 r k)) (fun k j => x2 (ix2 k j))
            (fun k j => x3 (ix2 k j)) (fun k => x4 (ix1 k)))
          (fun k => x5 (ix1 k)) (fun k => x6 (ix1 k)) (fun k j => x7 (ix2 k j)) (fun j => x8 (ix1 j))
          (fun j => x9 (ix1 j)) (fun j => x10 (ix1 j)) j :=
  pay0_apply x0 x1 x2 x3 x4 x5 x6 x7 x8 x9 x10 r j

end Cert.KernelPayload

end
-- ==== Proof.Blocks.lean ====
/-
  From the blocks the grid points write back to the whole result array, for the two launches of the perceptron kernel.

  At grid point `t` the kernel body computes, from the blocks its windows hold, one block of 1000 result rows and writes it
  back. Entry `(r, j)` of that block is the perceptron (Spec: hidden row in two halves, normalise, clamp, second product,
  normalise) of row `r` of the embedding block and row `r` of the message block — rows `1000 t + r` of the arrays — with the
  parameter arrays whole. So the block is block `t` of ONE whole-array function `G`, and since the blocks tile the result
  array, the array ends holding `G`.
-/
import proofs.«178970_j15917148799744_1_alg».proof.Proof.BlockReads
import proofs.«178970_j15917148799744_1_alg».proof.Proof.KernelPayload
import proofs.«178970_j15917148799744_1_alg».proof.Proof.Spec

set_option maxRecDepth 16384

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.BlockReads

/-- The perceptron on row `a` of a pair of N × 128 arrays, entry `j` of the 64 outputs; the two halves of the first
    matrix given as two 128 × 128 arrays. -/
def rowOut {N : ℕ} (emb msg : (⟨2, ![N, 128]⟩ : Shape).Idx → EReal) (wa wb : S128x128.Idx → EReal) (b1 g1 be1 : S128.Idx → EReal)
    (w2 : S128x64.Idx → EReal) (b2 g2 be2 : S64.Idx → EReal) (a : Fin N) (j : Fin 64) : EReal :=
  Cert.MlpSpec.out (Cert.MlpSpec.hiddenSplit (fun k => emb (ix2 a k)) (fun k => msg (ix2 a k)) (fun k j => wa (ix2 k j)) (fun k j => wb (ix2 k j)) (fun k => b1 (ix1 k)))
    (fun k => g1 (ix1 k)) (fun k => be1 (ix1 k)) (fun k j => w2 (ix2 k j)) (fun j => b2 (ix1 j)) (fun j => g2 (ix1 j)) (fun j => be2 (ix1 j)) j

/-- The whole N × 64 result array, row by row. -/
def G {N : ℕ} (emb msg : (⟨2, ![N, 128]⟩ : Shape).Idx → EReal) (wa wb : S128x128.Idx → EReal) (b1 g1 be1 : S128.Idx → EReal)
    (w2 : S128x64.Idx → EReal) (b2 g2 be2 : S64.Idx → EReal) : (⟨2, ![N, 64]⟩ : Shape).Idx → EReal :=
  fun i => rowOut emb msg wa wb b1 g1 be1 w2 b2 g2 be2 (i 0) (i 1)

theorem hz2 : (![0, 0] : Fin 2 → Nat) = fun _ => 0 := funext fun a => by fin_cases a <;> rfl
theorem hz1 : (![0] : Fin 1 → Nat) = fun _ => 0 := funext fun a => by fin_cases a; rfl

variable (V : (c : Dev nD) → (b : Ref sig .tc) → Buf (Elt Ideal) ((c : Thread nD τ).loc b))

/-! ## The first launch -/

/-- What point `t` writes back is block `t` of the perceptron of the arrays the launch finds: the body's arithmetic at
    entry `(r, j)` of the block is the perceptron of rows `r` of the two row blocks, which are rows `1000 t + r` of the arrays. -/
theorem flushed0_eq (c : Dev nD) (t : Fin cfg0.N) :
    (dat0 V c).flushed 11 t = ((cfg0.win 11).blk t).view.read (Elt Ideal)
      (G (N := 100000) (V c main_arg3) (V c main_v26) (V c main_v42) (V c main_v43) (V c main_arg6) (V c main_arg7) (V c main_arg8) (V c main_arg9) (V c main_arg10) (V c main_arg11) (V c main_arg12)) := by
  show (cfg0.win 11).cut (grid0.coords t) ((dat0 V c).after 11 t) = _
  rw [after0_11]
  unfold out0_11
  rw [View.canon_unit_zero hz2]
  simp only [View.ld_unit_zero (S := S1000x128) hz2, View.ld_unit_zero (S := S128x128) hz2, View.ld_unit_zero (S := S128x64) hz2,
    View.ld_unit_zero (S := S128) hz1, View.ld_unit_zero (S := S64) hz1]
  funext y
  obtain ⟨r, j, rfl⟩ : ∃ (r : Fin 1000) (j : Fin 64), y = (ix2 r j : S1000x64.Idx) := ⟨y 0, y 1, eq_ix2 y⟩
  rw [View.read_apply, emb0_11]
  refine (Cert.KernelPayload.pay0_apply _ _ _ _ _ _ _ _ _ _ _ r j).trans ?_
  simp only [blk0_0, blk0_1, blk0_2, blk0_3, blk0_4, blk0_5, blk0_6, blk0_7, blk0_8, blk0_9, blk0_10]
  rfl

/-- The launch's result array ends holding the perceptron of the arrays the launch finds, row by row: the blocks tile it. -/
theorem final0 (c : Dev nD) : (dat0 V c).arrAt 11 cfg0.N = G (N := 100000) (V c main_arg3) (V c main_v26) (V c main_v42) (V c main_v43) (V c main_arg6) (V c main_arg7) (V c main_arg8) (V c main_arg9) (V c main_arg10) (V c main_arg11) (V c main_arg12) :=
  (dat0 V c).arrAt_eq_of_cover 11 _ (fun t _ => flushed0_eq V c t) (cover0)

/-! ## The second launch -/

/-- What point `t` writes back is block `t` of the perceptron of the arrays the launch finds: the body's arithmetic at
    entry `(r, j)` of the block is the perceptron of rows `r` of the two row blocks, which are rows `1000 t + r` of the arrays. -/
theorem flushed1_eq (c : Dev nD) (t : Fin cfg1.N) :
    (dat1 V c).flushed 11 t = ((cfg1.win 11).blk t).view.read (Elt Ideal)
      (G (N := 20000) (V c main_arg4) (V c main_v41) (V c main_v45) (V c main_v46) (V c main_arg14) (V c main_arg15) (V c main_arg16) (V c main_arg17) (V c main_arg18) (V c main_arg19) (V c main_arg20)) := by
  show (cfg1.win 11).cut (grid1.coords t) ((dat1 V c).after 11 t) = _
  rw [after1_11]
  unfold out1_11
  rw [View.canon_unit_zero hz2]
  simp only [View.ld_unit_zero (S := S1000x128) hz2, View.ld_unit_zero (S := S128x128) hz2, View.ld_unit_zero (S := S128x64) hz2,
    View.ld_unit_zero (S := S128) hz1, View.ld_unit_zero (S := S64) hz1]
  funext y
  obtain ⟨r, j, rfl⟩ : ∃ (r : Fin 1000) (j : Fin 64), y = (ix2 r j : S1000x64.Idx) := ⟨y 0, y 1, eq_ix2 y⟩
  rw [View.read_apply, emb1_11]
  refine (Cert.KernelPayload.pay1_apply _ _ _ _ _ _ _ _ _ _ _ r j).trans ?_
  simp only [blk1_0, blk1_1, blk1_2, blk1_3, blk1_4, blk1_5, blk1_6, blk1_7, blk1_8, blk1_9, blk1_10]
  rfl

/-- The launch's result array ends holding the perceptron of the arrays the launch finds, row by row: the blocks tile it. -/
theorem final1 (c : Dev nD) : (dat1 V c).arrAt 11 cfg1.N = G (N := 20000) (V c main_arg4) (V c main_v41) (V c main_v45) (V c main_v46) (V c main_arg14) (V c main_arg15) (V c main_arg16) (V c main_arg17) (V c main_arg18) (V c main_arg19) (V c main_arg20) :=
  (dat1 V c).arrAt_eq_of_cover 11 _ (fun t _ => flushed1_eq V c t) (cover1)

end Cert.KernelIdeal.Blocks

end
-- ==== Proof.HostSide.lean ====
/-
  What the host operations in front of each kernel launch leave in the launch's arrays.

  The first launch reads the provider embeddings, the aggregated provider messages, the two 128-row halves of the
  first matrix (host slices of the 256 × 128 argument) and seven more arguments; the second launch reads the same of the
  code side. No host operation and no launch writes an argument, so each argument is still the launch memory's. The
  aggregated messages are computed by the SAME host operations in both programs (two scatter-adds of edge weights, two
  gathers of neighbour rows scaled by the weights, two scatter-adds of those, two divisions): they are carried as one
  opaque function of the arguments — the reference's own reading of them — and never opened.
-/
import proofs.«178970_j15917148799744_1_alg».proof.Proof.Gen.KernelIdeal.Frame
import proofs.«178970_j15917148799744_1_alg».proof.Proof.Gen.ReferenceIdeal.Read
import Idealize.ShloMosaic.Lib.StableHlo.Run
import Idealize.ShloMosaic.Lib.ValueLayout

set_option maxRecDepth 16384

noncomputable section

namespace Cert.KernelIdeal.HostSide

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-! ## The arguments are as launched at both launches -/

/-- After the first stretch of host operations an argument is as launched: no host operation writes one. -/
theorem W1_arg_of (c : Dev nD) (b : Ref sig .tc) (h : StableHlo.after hostOps0 (W0 m ρ c) (Proc.devRef .tc b) = W0 m ρ c (Proc.devRef .tc b)) :
    W1 m ρ c (Proc.devRef .tc b) = m ((c : Thread nD τ).loc b) := h.trans rfl

theorem V1_arg3 (c : Dev nD) : V1 m ρ c main_arg3 = m ((c : Thread nD τ).loc main_arg3) :=
  W1_arg_of m ρ c main_arg3 (StableHlo.after_of_forall_not_mem (b := Proc.devRef .tc main_arg3) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide))))

theorem V1_arg6 (c : Dev nD) : V1 m ρ c main_arg6 = m ((c : Thread nD τ).loc main_arg6) :=
  W1_arg_of m ρ c main_arg6 (StableHlo.after_of_forall_not_mem (b := Proc.devRef .tc main_arg6) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide))))

theorem V1_arg7 (c : Dev nD) : V1 m ρ c main_arg7 = m ((c : Thread nD τ).loc main_arg7) :=
  W1_arg_of m ρ c main_arg7 (StableHlo.after_of_forall_not_mem (b := Proc.devRef .tc main_arg7) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide))))

theorem V1_arg8 (c : Dev nD) : V1 m ρ c main_arg8 = m ((c : Thread nD τ).loc main_arg8) :=
  W1_arg_of m ρ c main_arg8 (StableHlo.after_of_forall_not_mem (b := Proc.devRef .tc main_arg8) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide))))

theorem V1_arg9 (c : Dev nD) : V1 m ρ c main_arg9 = m ((c : Thread nD τ).loc main_arg9) :=
  W1_arg_of m ρ c main_arg9 (StableHlo.after_of_forall_not_mem (b := Proc.devRef .tc main_arg9) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide))))

theorem V1_arg10 (c : Dev nD) : V1 m ρ c main_arg10 = m ((c : Thread nD τ).loc main_arg10) :=
  W1_arg_of m ρ c main_arg10 (StableHlo.after_of_forall_not_mem (b := Proc.devRef .tc main_arg10) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide))))

theorem V1_arg11 (c : Dev nD) : V1 m ρ c main_arg11 = m ((c : Thread nD τ).loc main_arg11) :=
  W1_arg_of m ρ c main_arg11 (StableHlo.after_of_forall_not_mem (b := Proc.devRef .tc main_arg11) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide))))

theorem V1_arg12 (c : Dev nD) : V1 m ρ c main_arg12 = m ((c : Thread nD τ).loc main_arg12) :=
  W1_arg_of m ρ c main_arg12 (StableHlo.after_of_forall_not_mem (b := Proc.devRef .tc main_arg12) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide))))

theorem V1_arg5 (c : Dev nD) : V1 m ρ c main_arg5 = m ((c : Thread nD τ).loc main_arg5) :=
  W1_arg_of m ρ c main_arg5 (StableHlo.after_of_forall_not_mem (b := Proc.devRef .tc main_arg5) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide))))

theorem W1_arg4 (c : Dev nD) : W1 m ρ c (Proc.devRef .tc main_arg4) = m ((c : Thread nD τ).loc main_arg4) :=
  W1_arg_of m ρ c main_arg4 (StableHlo.after_of_forall_not_mem (b := Proc.devRef .tc main_arg4) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide))))

theorem W2_arg4 (c : Dev nD) : W2 m ρ c (Proc.devRef .tc main_arg4) = m ((c : Thread nD τ).loc main_arg4) :=
  (W2_of_ne m ρ c main_arg4 (by decide)).trans (W1_arg4 m ρ c)

theorem W1_arg14 (c : Dev nD) : W1 m ρ c (Proc.devRef .tc main_arg14) = m ((c : Thread nD τ).loc main_arg14) :=
  W1_arg_of m ρ c main_arg14 (StableHlo.after_of_forall_not_mem (b := Proc.devRef .tc main_arg14) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide))))

theorem W2_arg14 (c : Dev nD) : W2 m ρ c (Proc.devRef .tc main_arg14) = m ((c : Thread nD τ).loc main_arg14) :=
  (W2_of_ne m ρ c main_arg14 (by decide)).trans (W1_arg14 m ρ c)

theorem W1_arg15 (c : Dev nD) : W1 m ρ c (Proc.devRef .tc main_arg15) = m ((c : Thread nD τ).loc main_arg15) :=
  W1_arg_of m ρ c main_arg15 (StableHlo.after_of_forall_not_mem (b := Proc.devRef .tc main_arg15) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide))))

theorem W2_arg15 (c : Dev nD) : W2 m ρ c (Proc.devRef .tc main_arg15) = m ((c : Thread nD τ).loc main_arg15) :=
  (W2_of_ne m ρ c main_arg15 (by decide)).trans (W1_arg15 m ρ c)

theorem W1_arg16 (c : Dev nD) : W1 m ρ c (Proc.devRef .tc main_arg16) = m ((c : Thread nD τ).loc main_arg16) :=
  W1_arg_of m ρ c main_arg16 (StableHlo.after_of_forall_not_mem (b := Proc.devRef .tc main_arg16) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide))))

theorem W2_arg16 (c : Dev nD) : W2 m ρ c (Proc.devRef .tc main_arg16) = m ((c : Thread nD τ).loc main_arg16) :=
  (W2_of_ne m ρ c main_arg16 (by decide)).trans (W1_arg16 m ρ c)

theorem W1_arg17 (c : Dev nD) : W1 m ρ c (Proc.devRef .tc main_arg17) = m ((c : Thread nD τ).loc main_arg17) :=
  W1_arg_of m ρ c main_arg17 (StableHlo.after_of_forall_not_mem (b := Proc.devRef .tc main_arg17) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide))))

theorem W2_arg17 (c : Dev nD) : W2 m ρ c (Proc.devRef .tc main_arg17) = m ((c : Thread nD τ).loc main_arg17) :=
  (W2_of_ne m ρ c main_arg17 (by decide)).trans (W1_arg17 m ρ c)

theorem W1_arg18 (c : Dev nD) : W1 m ρ c (Proc.devRef .tc main_arg18) = m ((c : Thread nD τ).loc main_arg18) :=
  W1_arg_of m ρ c main_arg18 (StableHlo.after_of_forall_not_mem (b := Proc.devRef .tc main_arg18) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide))))

theorem W2_arg18 (c : Dev nD) : W2 m ρ c (Proc.devRef .tc main_arg18) = m ((c : Thread nD τ).loc main_arg18) :=
  (W2_of_ne m ρ c main_arg18 (by decide)).trans (W1_arg18 m ρ c)

theorem W1_arg19 (c : Dev nD) : W1 m ρ c (Proc.devRef .tc main_arg19) = m ((c : Thread nD τ).loc main_arg19) :=
  W1_arg_of m ρ c main_arg19 (StableHlo.after_of_forall_not_mem (b := Proc.devRef .tc main_arg19) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide))))

theorem W2_arg19 (c : Dev nD) : W2 m ρ c (Proc.devRef .tc main_arg19) = m ((c : Thread nD τ).loc main_arg19) :=
  (W2_of_ne m ρ c main_arg19 (by decide)).trans (W1_arg19 m ρ c)

theorem W1_arg20 (c : Dev nD) : W1 m ρ c (Proc.devRef .tc main_arg20) = m ((c : Thread nD τ).loc main_arg20) :=
  W1_arg_of m ρ c main_arg20 (StableHlo.after_of_forall_not_mem (b := Proc.devRef .tc main_arg20) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide))))

theorem W2_arg20 (c : Dev nD) : W2 m ρ c (Proc.devRef .tc main_arg20) = m ((c : Thread nD τ).loc main_arg20) :=
  (W2_of_ne m ρ c main_arg20 (by decide)).trans (W1_arg20 m ρ c)

theorem W1_arg13 (c : Dev nD) : W1 m ρ c (Proc.devRef .tc main_arg13) = m ((c : Thread nD τ).loc main_arg13) :=
  W1_arg_of m ρ c main_arg13 (StableHlo.after_of_forall_not_mem (b := Proc.devRef .tc main_arg13) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide))))

theorem W2_arg13 (c : Dev nD) : W2 m ρ c (Proc.devRef .tc main_arg13) = m ((c : Thread nD τ).loc main_arg13) :=
  (W2_of_ne m ρ c main_arg13 (by decide)).trans (W1_arg13 m ρ c)

theorem V3_arg4 (c : Dev nD) : V3 m ρ c main_arg4 = m ((c : Thread nD τ).loc main_arg4) :=
  (StableHlo.after_of_forall_not_mem (b := Proc.devRef .tc main_arg4) _ _ (List.forall_iff_forall_mem.mp (by
      simp only [hostOps1, List.Forall, StableHlo.nullary_writes, StableHlo.unary_writes, StableHlo.binary_writes, StableHlo.ternary_writes, Finset.mem_singleton]
      repeat' apply And.intro
      all_goals exact StableHlo.devRef_ne_of_ne (by decide)))).trans (W2_arg4 m ρ c)

theorem V3_arg14 (c : Dev nD) : V3 m ρ c main_arg14 = m ((c : Thread nD τ).loc main_arg14) :=
  (StableHlo.after_of_forall_not_mem (b := Proc.devRef .tc main_arg14) _ _ (List.forall_iff_forall_mem.mp (by
      simp only [hostOps1, List.Forall, StableHlo.nullary_writes, StableHlo.unary_writes, StableHlo.binary_writes, StableHlo.ternary_writes, Finset.mem_singleton]
      repeat' apply And.intro
      all_goals exact StableHlo.devRef_ne_of_ne (by decide)))).trans (W2_arg14 m ρ c)

theorem V3_arg15 (c : Dev nD) : V3 m ρ c main_arg15 = m ((c : Thread nD τ).loc main_arg15) :=
  (StableHlo.after_of_forall_not_mem (b := Proc.devRef .tc main_arg15) _ _ (List.forall_iff_forall_mem.mp (by
      simp only [hostOps1, List.Forall, StableHlo.nullary_writes, StableHlo.unary_writes, StableHlo.binary_writes, StableHlo.ternary_writes, Finset.mem_singleton]
      repeat' apply And.intro
      all_goals exact StableHlo.devRef_ne_of_ne (by decide)))).trans (W2_arg15 m ρ c)

theorem V3_arg16 (c : Dev nD) : V3 m ρ c main_arg16 = m ((c : Thread nD τ).loc main_arg16) :=
  (StableHlo.after_of_forall_not_mem (b := Proc.devRef .tc main_arg16) _ _ (List.forall_iff_forall_mem.mp (by
      simp only [hostOps1, List.Forall, StableHlo.nullary_writes, StableHlo.unary_writes, StableHlo.binary_writes, StableHlo.ternary_writes, Finset.mem_singleton]
      repeat' apply And.intro
      all_goals exact StableHlo.devRef_ne_of_ne (by decide)))).trans (W2_arg16 m ρ c)

theorem V3_arg17 (c : Dev nD) : V3 m ρ c main_arg17 = m ((c : Thread nD τ).loc main_arg17) :=
  (StableHlo.after_of_forall_not_mem (b := Proc.devRef .tc main_arg17) _ _ (List.forall_iff_forall_mem.mp (by
      simp only [hostOps1, List.Forall, StableHlo.nullary_writes, StableHlo.unary_writes, StableHlo.binary_writes, StableHlo.ternary_writes, Finset.mem_singleton]
      repeat' apply And.intro
      all_goals exact StableHlo.devRef_ne_of_ne (by decide)))).trans (W2_arg17 m ρ c)

theorem V3_arg18 (c : Dev nD) : V3 m ρ c main_arg18 = m ((c : Thread nD τ).loc main_arg18) :=
  (StableHlo.after_of_forall_not_mem (b := Proc.devRef .tc main_arg18) _ _ (List.forall_iff_forall_mem.mp (by
      simp only [hostOps1, List.Forall, StableHlo.nullary_writes, StableHlo.unary_writes, StableHlo.binary_writes, StableHlo.ternary_writes, Finset.mem_singleton]
      repeat' apply And.intro
      all_goals exact StableHlo.devRef_ne_of_ne (by decide)))).trans (W2_arg18 m ρ c)

theorem V3_arg19 (c : Dev nD) : V3 m ρ c main_arg19 = m ((c : Thread nD τ).loc main_arg19) :=
  (StableHlo.after_of_forall_not_mem (b := Proc.devRef .tc main_arg19) _ _ (List.forall_iff_forall_mem.mp (by
      simp only [hostOps1, List.Forall, StableHlo.nullary_writes, StableHlo.unary_writes, StableHlo.binary_writes, StableHlo.ternary_writes, Finset.mem_singleton]
      repeat' apply And.intro
      all_goals exact StableHlo.devRef_ne_of_ne (by decide)))).trans (W2_arg19 m ρ c)

theorem V3_arg20 (c : Dev nD) : V3 m ρ c main_arg20 = m ((c : Thread nD τ).loc main_arg20) :=
  (StableHlo.after_of_forall_not_mem (b := Proc.devRef .tc main_arg20) _ _ (List.forall_iff_forall_mem.mp (by
      simp only [hostOps1, List.Forall, StableHlo.nullary_writes, StableHlo.unary_writes, StableHlo.binary_writes, StableHlo.ternary_writes, Finset.mem_singleton]
      repeat' apply And.intro
      all_goals exact StableHlo.devRef_ne_of_ne (by decide)))).trans (W2_arg20 m ρ c)

/-! ## The halves of the first matrices -/

/-- Rows 0 … 127 of a 256 × 128 array, read at an index. -/
theorem slice_lo (w : S256x128.Idx → EReal) (k j : Fin 128) :
    (extractStridedSlice S128x128 ![0, 0] w slices_S256x128_S128x128_0_0 : S128x128.Idx → EReal) (ix2 k j) = w (ix2 ⟨k.val, by omega⟩ j) :=
  slice2_axis0_apply 0 w slices_S256x128_S128x128_0_0 k j ⟨k.val, by omega⟩ (Nat.zero_add _).symm

/-- Rows 128 … 255 of a 256 × 128 array, read at an index. -/
theorem slice_hi (w : S256x128.Idx → EReal) (k j : Fin 128) :
    (extractStridedSlice S128x128 ![128, 0] w slices_S256x128_S128x128_128_0 : S128x128.Idx → EReal) (ix2 k j) = w (ix2 ⟨128 + k.val, by omega⟩ j) :=
  slice2_axis0_apply 128 w slices_S256x128_S128x128_128_0 k j ⟨128 + k.val, by omega⟩ rfl

theorem V1_v42 (c : Dev nD) : (V1 m ρ c main_v42 : S128x128.Idx → EReal)
    = extractStridedSlice S128x128 ![0, 0] (m ((c : Thread nD τ).loc main_arg5) : S256x128.Idx → EReal) slices_S256x128_S128x128_0_0 := by
  show StableHlo.after hostOps0 (W0 m ρ c) (Proc.devRef .tc main_v42) = _
  after_results_simp
  try rfl

theorem V1_v43 (c : Dev nD) : (V1 m ρ c main_v43 : S128x128.Idx → EReal)
    = extractStridedSlice S128x128 ![128, 0] (m ((c : Thread nD τ).loc main_arg5) : S256x128.Idx → EReal) slices_S256x128_S128x128_128_0 := by
  show StableHlo.after hostOps0 (W0 m ρ c) (Proc.devRef .tc main_v43) = _
  after_results_simp
  try rfl

theorem V3_v45 (c : Dev nD) : (V3 m ρ c main_v45 : S128x128.Idx → EReal)
    = extractStridedSlice S128x128 ![0, 0] (m ((c : Thread nD τ).loc main_arg13) : S256x128.Idx → EReal) slices_S256x128_S128x128_0_0 := by
  show StableHlo.after hostOps1 (W2 m ρ c) (Proc.devRef .tc main_v45) = _
  simp only [StableHlo.after_cons, StableHlo.after_nil]
  rw [StableHlo.unary_result_ne, StableHlo.unary_result, W2_arg13]
  decide

theorem V3_v46 (c : Dev nD) : (V3 m ρ c main_v46 : S128x128.Idx → EReal)
    = extractStridedSlice S128x128 ![128, 0] (m ((c : Thread nD τ).loc main_arg13) : S256x128.Idx → EReal) slices_S256x128_S128x128_128_0 := by
  show StableHlo.after hostOps1 (W2 m ρ c) (Proc.devRef .tc main_v46) = _
  simp only [StableHlo.after_cons, StableHlo.after_nil]
  rw [StableHlo.unary_result, StableHlo.unary_result_ne, W2_arg13]
  decide

/-! ## The aggregated messages: the same host operations in both programs -/

/-- The provider messages the first launch finds are the reference's provider messages of the same arguments. -/
theorem V1_v26 (c : Dev nD) : (V1 m ρ c main_v26 : S100000x128.Idx → EReal)
    = Cert.ReferenceIdeal.Read.val_main_v26 (F := Ideal) (m ((c : Thread nD τ).loc main_arg0)) (m ((c : Thread nD τ).loc main_arg1))
        (m ((c : Thread nD τ).loc main_arg2)) (m ((c : Thread nD τ).loc main_arg4)) := by
  show StableHlo.after hostOps0 (W0 m ρ c) (Proc.devRef .tc main_v26) = _
  after_results_simp
  try rfl

/-- The code messages after the first stretch of host operations are the reference's code messages of the same arguments. -/
theorem W1_v41 (c : Dev nD) : (W1 m ρ c (Proc.devRef .tc main_v41) : S20000x128.Idx → EReal)
    = Cert.ReferenceIdeal.Read.val_main_v41 (F := Ideal) (m ((c : Thread nD τ).loc main_arg0)) (m ((c : Thread nD τ).loc main_arg1))
        (m ((c : Thread nD τ).loc main_arg2)) (m ((c : Thread nD τ).loc main_arg3)) := by
  show StableHlo.after hostOps0 (W0 m ρ c) (Proc.devRef .tc main_v41) = _
  after_results_simp
  try rfl

/-- Neither the first launch nor the second stretch writes them, so the second launch finds the same. -/
theorem V3_v41 (c : Dev nD) : (V3 m ρ c main_v41 : S20000x128.Idx → EReal)
    = Cert.ReferenceIdeal.Read.val_main_v41 (F := Ideal) (m ((c : Thread nD τ).loc main_arg0)) (m ((c : Thread nD τ).loc main_arg1))
        (m ((c : Thread nD τ).loc main_arg2)) (m ((c : Thread nD τ).loc main_arg3)) :=
  ((StableHlo.after_of_forall_not_mem (b := Proc.devRef .tc main_v41) _ _ (List.forall_iff_forall_mem.mp (by
      simp only [hostOps1, List.Forall, StableHlo.nullary_writes, StableHlo.unary_writes, StableHlo.binary_writes, StableHlo.ternary_writes, Finset.mem_singleton]
      repeat' apply And.intro
      all_goals exact StableHlo.devRef_ne_of_ne (by decide)))).trans (W2_of_ne m ρ c main_v41 (by decide))).trans (W1_v41 m ρ c)

end Cert.KernelIdeal.HostSide

end
-- ==== Proof.KernelValue.lean ====
/-
  The two result arrays of the idealized kernel program as functions of its launch memory.

  Each result array is written by one launch and by nothing after it. The launch leaves the perceptron, row by row,
  of the arrays it finds (Blocks); those are arguments as launched, the two 128-row halves of the 256-row first matrix,
  and the aggregated messages, which are the same function of the arguments in both programs (HostSide). Reading the
  halves back into the whole first matrix gives the perceptron of Spec with the first product taken in two halves.
-/
import proofs.«178970_j15917148799744_1_alg».proof.Proof.Blocks
import proofs.«178970_j15917148799744_1_alg».proof.Proof.HostSide

set_option maxRecDepth 16384

noncomputable section

namespace Cert.KernelIdeal.KernelValue

open Idealize.ShloMosaic Idealize.ShloMosaic.TcCoe Idealize.SL.Sem Idealize.ShloMosaic.ValueIdx
open Cert.KernelIdeal Cert.KernelIdeal.Gen Cert.KernelIdeal.HostSide

variable (m : (ℓ : Loc nD τ sig) → Buf (Elt Ideal) ℓ) (ρ : Dev nD → PrngReg)

/-- The provider result: on row `i 0`, the perceptron of the provider's embedding row and its aggregated message row. -/
def provOut (c : Dev nD) : S100000x64.Idx → EReal := fun i =>
  Cert.MlpSpec.mlp (fun k => ((m ((c : Thread nD τ).loc main_arg3)) : S100000x128.Idx → EReal) (ix2 (i 0) k))
    (fun k => Cert.ReferenceIdeal.Read.val_main_v26 (F := Ideal) (m ((c : Thread nD τ).loc main_arg0)) (m ((c : Thread nD τ).loc main_arg1)) (m ((c : Thread nD τ).loc main_arg2)) (m ((c : Thread nD τ).loc main_arg4)) (ix2 (i 0) k))
    (fun k j => ((m ((c : Thread nD τ).loc main_arg5)) : S256x128.Idx → EReal) (ix2 k j)) (fun k => ((m ((c : Thread nD τ).loc main_arg6)) : S128.Idx → EReal) (ix1 k))
    (fun k => ((m ((c : Thread nD τ).loc main_arg7)) : S128.Idx → EReal) (ix1 k)) (fun k => ((m ((c : Thread nD τ).loc main_arg8)) : S128.Idx → EReal) (ix1 k))
    (fun k j => ((m ((c : Thread nD τ).loc main_arg9)) : S128x64.Idx → EReal) (ix2 k j)) (fun j => ((m ((c : Thread nD τ).loc main_arg10)) : S64.Idx → EReal) (ix1 j))
    (fun j => ((m ((c : Thread nD τ).loc main_arg11)) : S64.Idx → EReal) (ix1 j)) (fun j => ((m ((c : Thread nD τ).loc main_arg12)) : S64.Idx → EReal) (ix1 j)) (i 1)

/-- The code result: on row `i 0`, the perceptron of the code's embedding row and its aggregated message row. -/
def codeOut (c : Dev nD) : S20000x64.Idx → EReal := fun i =>
  Cert.MlpSpec.mlp (fun k => ((m ((c : Thread nD τ).loc main_arg4)) : S20000x128.Idx → EReal) (ix2 (i 0) k))
    (fun k => Cert.ReferenceIdeal.Read.val_main_v41 (F := Ideal) (m ((c : Thread nD τ).loc main_arg0)) (m ((c : Thread nD τ).loc main_arg1)) (m ((c : Thread nD τ).loc main_arg2)) (m ((c : Thread nD τ).loc main_arg3)) (ix2 (i 0) k))
    (fun k j => ((m ((c : Thread nD τ).loc main_arg13)) : S256x128.Idx → EReal) (ix2 k j)) (fun k => ((m ((c : Thread nD τ).loc main_arg14)) : S128.Idx → EReal) (ix1 k))
    (fun k => ((m ((c : Thread nD τ).loc main_arg15)) : S128.Idx → EReal) (ix1 k)) (fun k => ((m ((c : Thread nD τ).loc main_arg16)) : S128.Idx → EReal) (ix1 k))
    (fun k j => ((m ((c : Thread nD τ).loc main_arg17)) : S128x64.Idx → EReal) (ix2 k j)) (fun j => ((m ((c : Thread nD τ).loc main_arg18)) : S64.Idx → EReal) (ix1 j))
    (fun j => ((m ((c : Thread nD τ).loc main_arg19)) : S64.Idx → EReal) (ix1 j)) (fun j => ((m ((c : Thread nD τ).loc main_arg20)) : S64.Idx → EReal) (ix1 j)) (i 1)

/-- The provider result buffer at the return: written by the first launch, untouched by the second stretch of host
    operations and by the second launch. -/
theorem out0 (c : Dev nD) : (W4 m ρ c (Proc.devRef .tc main_v44) : S100000x64.Idx → EReal) = provOut m c := by
  have e1 : W4 m ρ c (Proc.devRef .tc main_v44) = W3 m ρ c (Proc.devRef .tc main_v44) := W4_of_ne m ρ c main_v44 (by decide)
  have e2 : W3 m ρ c (Proc.devRef .tc main_v44) = W2 m ρ c (Proc.devRef .tc main_v44) :=
    (StableHlo.after_of_forall_not_mem (b := Proc.devRef .tc main_v44) _ _ (List.forall_iff_forall_mem.mp (by
      simp only [hostOps1, List.Forall, StableHlo.nullary_writes, StableHlo.unary_writes, StableHlo.binary_writes, StableHlo.ternary_writes, Finset.mem_singleton]
      repeat' apply And.intro
      all_goals exact StableHlo.devRef_ne_of_ne (by decide))))
  have e3 : W2 m ρ c (Proc.devRef .tc main_v44) = (dat0 (V1 m ρ) c).arrAt 11 cfg0.N := W2_arr m ρ c 11
  rw [e1, e2, e3, Cert.KernelIdeal.Blocks.final0 (V1 m ρ) c]
  rw [V1_arg3, V1_v26, V1_v42, V1_v43, V1_arg6, V1_arg7, V1_arg8, V1_arg9, V1_arg10, V1_arg11, V1_arg12]
  funext i
  unfold Cert.KernelIdeal.Blocks.G Cert.KernelIdeal.Blocks.rowOut provOut Cert.MlpSpec.mlp
  have hlo : (fun (k j : Fin 128) => (extractStridedSlice S128x128 ![0, 0] ((m ((c : Thread nD τ).loc main_arg5)) : S256x128.Idx → EReal) slices_S256x128_S128x128_0_0 : S128x128.Idx → EReal) (ix2 k j))
      = fun k j => ((m ((c : Thread nD τ).loc main_arg5)) : S256x128.Idx → EReal) (ix2 (Cert.MlpSpec.lo k) j) := funext fun k => funext fun j => slice_lo _ k j
  have hhi : (fun (k j : Fin 128) => (extractStridedSlice S128x128 ![128, 0] ((m ((c : Thread nD τ).loc main_arg5)) : S256x128.Idx → EReal) slices_S256x128_S128x128_128_0 : S128x128.Idx → EReal) (ix2 k j))
      = fun k j => ((m ((c : Thread nD τ).loc main_arg5)) : S256x128.Idx → EReal) (ix2 (Cert.MlpSpec.hi k) j) := funext fun k => funext fun j => slice_hi _ k j
  rw [hlo, hhi]

/-- The code result buffer at the return: written by the second launch. -/
theorem out1 (c : Dev nD) : (W4 m ρ c (Proc.devRef .tc main_v47) : S20000x64.Idx → EReal) = codeOut m c := by
  have e3 : W4 m ρ c (Proc.devRef .tc main_v47) = (dat1 (V3 m ρ) c).arrAt 11 cfg1.N := W4_arr m ρ c 11
  rw [e3, Cert.KernelIdeal.Blocks.final1 (V3 m ρ) c]
  rw [V3_arg4, V3_v41, V3_v45, V3_v46, V3_arg14, V3_arg15, V3_arg16, V3_arg17, V3_arg18, V3_arg19, V3_arg20]
  funext i
  unfold Cert.KernelIdeal.Blocks.G Cert.KernelIdeal.Blocks.rowOut codeOut Cert.MlpSpec.mlp
  have hlo : (fun (k j : Fin 128) => (extractStridedSlice S128x128 ![0, 0] ((m ((c : Thread nD τ).loc main_arg13)) : S256x128.Idx → EReal) slices_S256x128_S128x128_0_0 : S128x128.Idx → EReal) (ix2 k j))
      = fun k j => ((m ((c : Thread nD τ).loc main_arg13)) : S256x128.Idx → EReal) (ix2 (Cert.MlpSpec.lo k) j) := funext fun k => funext fun j => slice_lo _ k j
  have hhi : (fun (k j : Fin 128) => (extractStridedSlice S128x128 ![128, 0] ((m ((c : Thread nD τ).loc main_arg13)) : S256x128.Idx → EReal) slices_S256x128_S128x128_128_0 : S128x128.Idx → EReal) (ix2 k j))
      = fun k j => ((m ((c : Thread nD τ).loc main_arg13)) : S256x128.Idx → EReal) (ix2 (Cert.MlpSpec.hi k) j) := funext fun k => funext fun j => slice_hi _ k j
  rw [hlo, hhi]

end Cert.KernelIdeal.KernelValue

end
-- ==== Proof.RefMlp.lean ====
/-
  The reference side, one row at a time.

  The reference program computes two perceptrons with layer normalisation, one over the 100000 "provider" rows
  (operations 42 to 99) and one over the 20000 "code" rows (operations 100 to 157). Each concatenates a row's own
  embedding with its aggregated message, multiplies by a 256 × 128 matrix and shifts, normalises (mean, deviation,
  variance, reciprocal root, scale, shift), clamps below at zero, multiplies by a 128 × 64 matrix and shifts, and
  normalises again.

  Every operation's result element is read from its operands' elements by the generated reading lemmas; an operand
  that was broadcast or reduced is read at an index computed from the result's index, and at an index given by its
  two coordinates that computed index is again an index given by coordinates (the `idx2` / `idx1` steps below). So
  the value at row `a`, column `j` is built up layer by layer — concatenated row, hidden row, mean, deviation, variance,
  reciprocal root, first normalisation, second product, and the same five steps for the second normalisation — each
  layer stated through the specification's functions of the previous layer's ROW, so that no layer's term is ever
  expanded inside the next. The last step folds the layers into the specification's perceptron; the only law used
  there is that the product with a concatenated row is the sum of the products with its halves
  (`Cert.MlpSpec.out_hiddenCat`). The aggregated messages (operations 26 and 41) are never opened.
-/
import proofs.«178970_j15917148799744_1_alg».proof.Proof.Gen.ReferenceIdeal.Read
import proofs.«178970_j15917148799744_1_alg».proof.Proof.Spec

noncomputable section

namespace Cert.RefMlp

open Idealize.ShloMosaic Idealize.ShloMosaic.ValueIdx Cert.ReferenceIdeal Cert.ReferenceIdeal.Read

/-- Two index functions of a rank-two shape agree when both coordinates do. -/
local macro "idx2" : tactic => `(tactic| (funext d; match d with | ⟨0, _⟩ => rfl | ⟨1, _⟩ => rfl))
/-- Two index functions of a rank-one shape agree when the coordinate does. -/
local macro "idx1" : tactic => `(tactic| (funext d; match d with | ⟨0, _⟩ => rfl))

/-! ## The provider side: operations 42 to 99 -/

section Provider
variable (x0 x1 : (⟨S2000000, .i32⟩ : BufTy).Contents (Elt Ideal)) (x2 : (⟨S2000000, .f32⟩ : BufTy).Contents (Elt Ideal))
  (x3 : (⟨S100000x128, .f32⟩ : BufTy).Contents (Elt Ideal)) (x4 : (⟨S20000x128, .f32⟩ : BufTy).Contents (Elt Ideal))
  (x5 : (⟨S256x128, .f32⟩ : BufTy).Contents (Elt Ideal)) (x6 x7 x8 : (⟨S128, .f32⟩ : BufTy).Contents (Elt Ideal))
  (x9 : (⟨S128x64, .f32⟩ : BufTy).Contents (Elt Ideal)) (x10 x11 x12 : (⟨S64, .f32⟩ : BufTy).Contents (Elt Ideal))
  (a : Fin 100000)

/-- The first half of the concatenated row is the node's own embedding. -/
theorem p_cat_lo (k : Fin 128) :
    val_main_v42 (F := Ideal) x0 x1 x2 x3 x4 (ix2 a (Cert.MlpSpec.lo k)) = x3 (ix2 a k) := by
  unfold val_main_v42
  refine concatenate_pair_apply_left (t := S100000x256) (s₁ := S100000x128) (s₂ := S100000x128) 1 _ _ _ (ix2 a (Cert.MlpSpec.lo k)) rfl (ix2 a k) ?_
  intro b
  match b with
  | ⟨0, _⟩ => rfl
  | ⟨1, _⟩ => rfl

/-- The second half of the concatenated row is the aggregated message. -/
theorem p_cat_hi (k : Fin 128) :
    val_main_v42 (F := Ideal) x0 x1 x2 x3 x4 (ix2 a (Cert.MlpSpec.hi k)) = val_main_v26 (F := Ideal) x0 x1 x2 x4 (ix2 a k) := by
  unfold val_main_v42
  refine concatenate_pair_apply_right (t := S100000x256) (s₁ := S100000x128) (s₂ := S100000x128) 1 _ _ _ (ix2 a (Cert.MlpSpec.hi k)) rfl rfl (ix2 a k) ?_ ?_
  · intro b hb
    match b, hb with
    | ⟨0, _⟩, _ => rfl
    | ⟨1, _⟩, hb => exact absurd rfl hb
  · show k.val + 128 = 128 + k.val
    omega

/-- The hidden row: the concatenated row times the first matrix, plus the first shift. -/
theorem p_hidden (k : Fin 128) :
    val_main_v46 (F := Ideal) x0 x1 x2 x3 x4 x5 x6 (ix2 a k)
      = Cert.MlpSpec.hiddenCat (fun l => val_main_v42 (F := Ideal) x0 x1 x2 x3 x4 (ix2 a l)) (fun l k => x5 (ix2 l k)) (fun k => x6 (ix1 k)) k := by
  rw [val_main_v46_apply, val_main_v43_apply, val_main_v45_apply, val_main_v44_apply]
  have el : ∀ l, lidx_main_v43 (ix2 a k) l = ix2 a l := fun l => by idx2
  have er : ∀ l, ridx_main_v43 (ix2 a k) l = ix2 l k := fun l => by idx2
  have eb : idx_main_v44 (idx_main_v45 (ix2 a k)) = ix1 k := by idx1
  simp only [el, er, eb]
  rfl

/-- The mean of the hidden row. -/
theorem p_mean1 :
    val_main_v50 (F := Ideal) x0 x1 x2 x3 x4 x5 x6 (ix2 a (0 : Fin 1))
      = Cert.MlpSpec.mean Cert.MlpSpec.c128 (fun k => val_main_v46 (F := Ideal) x0 x1 x2 x3 x4 x5 x6 (ix2 a k)) := by
  rw [val_main_v50_apply, val_main_v48_apply, val_main_v47_apply, val_main_v49_apply, val_main_cst_8_apply, val_main_cst_9_apply]
  have e : ∀ k, idx_main_v47 (idx_main_v48 (ix2 a (0 : Fin 1))) k = ix2 a k := fun k => by idx2
  simp only [e, Ideal.ofBits_def, Ideal.ofBits_zero_f32, zero_add]
  rfl

/-- The deviation of a hidden entry from the mean (the copy the variance is taken of). -/
theorem p_dev1 (k : Fin 128) :
    val_main_v52 (F := Ideal) x0 x1 x2 x3 x4 x5 x6 (ix2 a k)
      = val_main_v46 (F := Ideal) x0 x1 x2 x3 x4 x5 x6 (ix2 a k)
        - Cert.MlpSpec.mean Cert.MlpSpec.c128 (fun k => val_main_v46 (F := Ideal) x0 x1 x2 x3 x4 x5 x6 (ix2 a k)) := by
  rw [val_main_v52_apply, val_main_v51_apply, show idx_main_v51 (ix2 a k) = ix2 a (0 : Fin 1) from by idx2, p_mean1]
  rfl

/-- The variance of the hidden row. -/
theorem p_var1 :
    val_main_v57 (F := Ideal) x0 x1 x2 x3 x4 x5 x6 (ix2 a (0 : Fin 1))
      = Cert.MlpSpec.var Cert.MlpSpec.c128 (fun k => val_main_v46 (F := Ideal) x0 x1 x2 x3 x4 x5 x6 (ix2 a k)) := by
  rw [val_main_v57_apply, val_main_v55_apply, val_main_v54_apply, val_main_v56_apply, val_main_cst_10_apply, val_main_cst_11_apply]
  have e : ∀ k, idx_main_v54 (idx_main_v55 (ix2 a (0 : Fin 1))) k = ix2 a k := fun k => by idx2
  simp only [e, val_main_v53_apply, p_dev1, Ideal.ofBits_def, Ideal.ofBits_zero_f32, zero_add]
  rfl

/-- The reciprocal root of the variance plus the small constant. -/
theorem p_rstd1 :
    val_main_v62 (F := Ideal) x0 x1 x2 x3 x4 x5 x6 (ix2 a (0 : Fin 1))
      = Ideal.rsqrt (Cert.MlpSpec.var Cert.MlpSpec.c128 (fun k => val_main_v46 (F := Ideal) x0 x1 x2 x3 x4 x5 x6 (ix2 a k)) + Cert.MlpSpec.eps) := by
  rw [val_main_v62_apply, val_main_v61_apply, p_var1, val_main_v60_apply, val_main_cst_12_apply]
  rfl

/-- The first normalisation. -/
theorem p_ln1 (k : Fin 128) :
    val_main_v70 (F := Ideal) x0 x1 x2 x3 x4 x5 x6 x7 x8 (ix2 a k)
      = Cert.MlpSpec.ln Cert.MlpSpec.c128 (fun k => val_main_v46 (F := Ideal) x0 x1 x2 x3 x4 x5 x6 (ix2 a k))
          (fun k => x7 (ix1 k)) (fun k => x8 (ix1 k)) k := by
  rw [val_main_v70_apply, val_main_v67_apply, val_main_v64_apply, val_main_v59_apply, val_main_v58_apply, val_main_v63_apply,
    val_main_v66_apply, val_main_v65_apply, val_main_v69_apply, val_main_v68_apply,
    show idx_main_v58 (ix2 a k) = ix2 a (0 : Fin 1) from by idx2, show idx_main_v63 (ix2 a k) = ix2 a (0 : Fin 1) from by idx2,
    show idx_main_v65 (idx_main_v66 (ix2 a k)) = ix1 k from by idx1, show idx_main_v68 (idx_main_v69 (ix2 a k)) = ix1 k from by idx1,
    p_mean1, p_rstd1]
  rfl

/-- The clamped row times the second matrix, plus the second shift. -/
theorem p_pre2 (j : Fin 64) :
    val_main_v75 (F := Ideal) x0 x1 x2 x3 x4 x5 x6 x7 x8 x9 x10 (ix2 a j)
      = (∑ k, max (Cert.MlpSpec.ln Cert.MlpSpec.c128 (fun k => val_main_v46 (F := Ideal) x0 x1 x2 x3 x4 x5 x6 (ix2 a k))
          (fun k => x7 (ix1 k)) (fun k => x8 (ix1 k)) k) Cert.MlpSpec.zero * x9 (ix2 k j)) + x10 (ix1 j) := by
  rw [val_main_v75_apply, val_main_v72_apply, val_main_v74_apply, val_main_v73_apply]
  have el : ∀ l, lidx_main_v72 (ix2 a j) l = ix2 a l := fun l => by idx2
  have er : ∀ l, ridx_main_v72 (ix2 a j) l = ix2 l j := fun l => by idx2
  have eb : idx_main_v73 (idx_main_v74 (ix2 a j)) = ix1 j := by idx1
  simp only [el, er, eb, val_main_v71_apply, p_ln1, val_main_call0_v0_apply, val_main_call0_cst_apply]
  rfl

/-- The mean of the second row. -/
theorem p_mean2 :
    val_main_v79 (F := Ideal) x0 x1 x2 x3 x4 x5 x6 x7 x8 x9 x10 (ix2 a (0 : Fin 1))
      = Cert.MlpSpec.mean Cert.MlpSpec.c64 (fun j => val_main_v75 (F := Ideal) x0 x1 x2 x3 x4 x5 x6 x7 x8 x9 x10 (ix2 a j)) := by
  rw [val_main_v79_apply, val_main_v77_apply, val_main_v76_apply, val_main_v78_apply, val_main_cst_13_apply, val_main_cst_14_apply]
  have e : ∀ k, idx_main_v76 (idx_main_v77 (ix2 a (0 : Fin 1))) k = ix2 a k := fun k => by idx2
  simp only [e, Ideal.ofBits_def, Ideal.ofBits_zero_f32, zero_add]
  rfl

/-- The deviation of an entry of the second row from its mean. -/
theorem p_dev2 (j : Fin 64) :
    val_main_v81 (F := Ideal) x0 x1 x2 x3 x4 x5 x6 x7 x8 x9 x10 (ix2 a j)
      = val_main_v75 (F := Ideal) x0 x1 x2 x3 x4 x5 x6 x7 x8 x9 x10 (ix2 a j)
        - Cert.MlpSpec.mean Cert.MlpSpec.c64 (fun j => val_main_v75 (F := Ideal) x0 x1 x2 x3 x4 x5 x6 x7 x8 x9 x10 (ix2 a j)) := by
  rw [val_main_v81_apply, val_main_v80_apply, show idx_main_v80 (ix2 a j) = ix2 a (0 : Fin 1) from by idx2, p_mean2]
  rfl

/-- The variance of the second row. -/
theorem p_var2 :
    val_main_v86 (F := Ideal) x0 x1 x2 x3 x4 x5 x6 x7 x8 x9 x10 (ix2 a (0 : Fin 1))
      = Cert.MlpSpec.var Cert.MlpSpec.c64 (fun j => val_main_v75 (F := Ideal) x0 x1 x2 x3 x4 x5 x6 x7 x8 x9 x10 (ix2 a j)) := by
  rw [val_main_v86_apply, val_main_v84_apply, val_main_v83_apply, val_main_v85_apply, val_main_cst_15_apply, val_main_cst_16_apply]
  have e : ∀ k, idx_main_v83 (idx_main_v84 (ix2 a (0 : Fin 1))) k = ix2 a k := fun k => by idx2
  simp only [e, val_main_v82_apply, p_dev2, Ideal.ofBits_def, Ideal.ofBits_zero_f32, zero_add]
  rfl

/-- The reciprocal root of the second variance plus the small constant. -/
theorem p_rstd2 :
    val_main_v91 (F := Ideal) x0 x1 x2 x3 x4 x5 x6 x7 x8 x9 x10 (ix2 a (0 : Fin 1))
      = Ideal.rsqrt (Cert.MlpSpec.var Cert.MlpSpec.c64 (fun j => val_main_v75 (F := Ideal) x0 x1 x2 x3 x4 x5 x6 x7 x8 x9 x10 (ix2 a j)) + Cert.MlpSpec.eps) := by
  rw [val_main_v91_apply, val_main_v90_apply, p_var2, val_main_v89_apply, val_main_cst_17_apply]
  rfl

/-- The second normalisation. -/
theorem p_ln2 (j : Fin 64) :
    val_main_v99 (F := Ideal) x0 x1 x2 x3 x4 x5 x6 x7 x8 x9 x10 x11 x12 (ix2 a j)
      = Cert.MlpSpec.ln Cert.MlpSpec.c64 (fun j => val_main_v75 (F := Ideal) x0 x1 x2 x3 x4 x5 x6 x7 x8 x9 x10 (ix2 a j))
          (fun j => x11 (ix1 j)) (fun j => x12 (ix1 j)) j := by
  rw [val_main_v99_apply, val_main_v96_apply, val_main_v93_apply, val_main_v88_apply, val_main_v87_apply, val_main_v92_apply,
    val_main_v95_apply, val_main_v94_apply, val_main_v98_apply, val_main_v97_apply,
    show idx_main_v87 (ix2 a j) = ix2 a (0 : Fin 1) from by idx2, show idx_main_v92 (ix2 a j) = ix2 a (0 : Fin 1) from by idx2,
    show idx_main_v94 (idx_main_v95 (ix2 a j)) = ix1 j from by idx1, show idx_main_v97 (idx_main_v98 (ix2 a j)) = ix1 j from by idx1,
    p_mean2, p_rstd2]
  rfl

/-- The provider side of the reference is the perceptron of the specification, row by row. -/
theorem provider_out (j : Fin 64) :
    val_main_v99 (F := Ideal) x0 x1 x2 x3 x4 x5 x6 x7 x8 x9 x10 x11 x12 (ix2 a j)
      = Cert.MlpSpec.mlp (fun k => x3 (ix2 a k)) (fun k => val_main_v26 (F := Ideal) x0 x1 x2 x4 (ix2 a k))
          (fun k j => x5 (ix2 k j)) (fun k => x6 (ix1 k)) (fun k => x7 (ix1 k)) (fun k => x8 (ix1 k))
          (fun k j => x9 (ix2 k j)) (fun j => x10 (ix1 j)) (fun j => x11 (ix1 j)) (fun j => x12 (ix1 j)) j := by
  rw [← Cert.MlpSpec.out_hiddenCat (fun l => val_main_v42 (F := Ideal) x0 x1 x2 x3 x4 (ix2 a l)) _ _ _ _ _ _ _ _ _ _
    (p_cat_lo x0 x1 x2 x3 x4 a) (p_cat_hi x0 x1 x2 x3 x4 a), p_ln2]
  have hh : (fun k => val_main_v46 (F := Ideal) x0 x1 x2 x3 x4 x5 x6 (ix2 a k))
      = Cert.MlpSpec.hiddenCat (fun l => val_main_v42 (F := Ideal) x0 x1 x2 x3 x4 (ix2 a l)) (fun l k => x5 (ix2 l k)) (fun k => x6 (ix1 k)) :=
    funext fun k => p_hidden x0 x1 x2 x3 x4 x5 x6 a k
  have hp : (fun j => val_main_v75 (F := Ideal) x0 x1 x2 x3 x4 x5 x6 x7 x8 x9 x10 (ix2 a j))
      = fun j => (∑ k, max (Cert.MlpSpec.ln Cert.MlpSpec.c128 (fun k => val_main_v46 (F := Ideal) x0 x1 x2 x3 x4 x5 x6 (ix2 a k))
          (fun k => x7 (ix1 k)) (fun k => x8 (ix1 k)) k) Cert.MlpSpec.zero * x9 (ix2 k j)) + x10 (ix1 j) :=
    funext fun j => p_pre2 x0 x1 x2 x3 x4 x5 x6 x7 x8 x9 x10 a j
  rw [hp, hh]
  rfl

end Provider

/-! ## The code side: operations 100 to 157 -/

section Code
variable (x0 x1 : (⟨S2000000, .i32⟩ : BufTy).Contents (Elt Ideal)) (x2 : (⟨S2000000, .f32⟩ : BufTy).Contents (Elt Ideal))
  (x3 : (⟨S100000x128, .f32⟩ : BufTy).Contents (Elt Ideal)) (x4 : (⟨S20000x128, .f32⟩ : BufTy).Contents (Elt Ideal))
  (x13 : (⟨S256x128, .f32⟩ : BufTy).Contents (Elt Ideal)) (x14 x15 x16 : (⟨S128, .f32⟩ : BufTy).Contents (Elt Ideal))
  (x17 : (⟨S128x64, .f32⟩ : BufTy).Contents (Elt Ideal)) (x18 x19 x20 : (⟨S64, .f32⟩ : BufTy).Contents (Elt Ideal))
  (a : Fin 20000)

/-- The first half of the concatenated row is the node's own embedding. -/
theorem c_cat_lo (k : Fin 128) :
    val_main_v100 (F := Ideal) x0 x1 x2 x3 x4 (ix2 a (Cert.MlpSpec.lo k)) = x4 (ix2 a k) := by
  unfold val_main_v100
  refine concatenate_pair_apply_left (t := S20000x256) (s₁ := S20000x128) (s₂ := S20000x128) 1 _ _ _ (ix2 a (Cert.MlpSpec.lo k)) rfl (ix2 a k) ?_
  intro b
  match b with
  | ⟨0, _⟩ => rfl
  | ⟨1, _⟩ => rfl

/-- The second half of the concatenated row is the aggregated message. -/
theorem c_cat_hi (k : Fin 128) :
    val_main_v100 (F := Ideal) x0 x1 x2 x3 x4 (ix2 a (Cert.MlpSpec.hi k)) = val_main_v41 (F := Ideal) x0 x1 x2 x3 (ix2 a k) := by
  unfold val_main_v100
  refine concatenate_pair_apply_right (t := S20000x256) (s₁ := S20000x128) (s₂ := S20000x128) 1 _ _ _ (ix2 a (Cert.MlpSpec.hi k)) rfl rfl (ix2 a k) ?_ ?_
  · intro b hb
    match b, hb with
    | ⟨0, _⟩, _ => rfl
    | ⟨1, _⟩, hb => exact absurd rfl hb
  · show k.val + 128 = 128 + k.val
    omega

/-- The hidden row: the concatenated row times the first matrix, plus the first shift. -/
theorem c_hidden (k : Fin 128) :
    val_main_v104 (F := Ideal) x0 x1 x2 x3 x4 x13 x14 (ix2 a k)
      = Cert.MlpSpec.hiddenCat (fun l => val_main_v100 (F := Ideal) x0 x1 x2 x3 x4 (ix2 a l)) (fun l k => x13 (ix2 l k)) (fun k => x14 (ix1 k)) k := by
  rw [val_main_v104_apply, val_main_v101_apply, val_main_v103_apply, val_main_v102_apply]
  have el : ∀ l, lidx_main_v101 (ix2 a k) l = ix2 a l := fun l => by idx2
  have er : ∀ l, ridx_main_v101 (ix2 a k) l = ix2 l k := fun l => by idx2
  have eb : idx_main_v102 (idx_main_v103 (ix2 a k)) = ix1 k := by idx1
  simp only [el, er, eb]
  rfl

/-- The mean of the hidden row. -/
theorem c_mean1 :
    val_main_v108 (F := Ideal) x0 x1 x2 x3 x4 x13 x14 (ix2 a (0 : Fin 1))
      = Cert.MlpSpec.mean Cert.MlpSpec.c128 (fun k => val_main_v104 (F := Ideal) x0 x1 x2 x3 x4 x13 x14 (ix2 a k)) := by
  rw [val_main_v108_apply, val_main_v106_apply, val_main_v105_apply, val_main_v107_apply, val_main_cst_18_apply, val_main_cst_19_apply]
  have e : ∀ k, idx_main_v105 (idx_main_v106 (ix2 a (0 : Fin 1))) k = ix2 a k := fun k => by idx2
  simp only [e, Ideal.ofBits_def, Ideal.ofBits_zero_f32, zero_add]
  rfl

/-- The deviation of a hidden entry from the mean (the copy the variance is taken of). -/
theorem c_dev1 (k : Fin 128) :
    val_main_v110 (F := Ideal) x0 x1 x2 x3 x4 x13 x14 (ix2 a k)
      = val_main_v104 (F := Ideal) x0 x1 x2 x3 x4 x13 x14 (ix2 a k)
        - Cert.MlpSpec.mean Cert.MlpSpec.c128 (fun k => val_main_v104 (F := Ideal) x0 x1 x2 x3 x4 x13 x14 (ix2 a k)) := by
  rw [val_main_v110_apply, val_main_v109_apply, show idx_main_v109 (ix2 a k) = ix2 a (0 : Fin 1) from by idx2, c_mean1]
  rfl

/-- The variance of the hidden row. -/
theorem c_var1 :
    val_main_v115 (F := Ideal) x0 x1 x2 x3 x4 x13 x14 (ix2 a (0 : Fin 1))
      = Cert.MlpSpec.var Cert.MlpSpec.c128 (fun k => val_main_v104 (F := Ideal) x0 x1 x2 x3 x4 x13 x14 (ix2 a k)) := by
  rw [val_main_v115_apply, val_main_v113_apply, val_main_v112_apply, val_main_v114_apply, val_main_cst_20_apply, val_main_cst_21_apply]
  have e : ∀ k, idx_main_v112 (idx_main_v113 (ix2 a (0 : Fin 1))) k = ix2 a k := fun k => by idx2
  simp only [e, val_main_v111_apply, c_dev1, Ideal.ofBits_def, Ideal.ofBits_zero_f32, zero_add]
  rfl

/-- The reciprocal root of the variance plus the small constant. -/
theorem c_rstd1 :
    val_main_v120 (F := Ideal) x0 x1 x2 x3 x4 x13 x14 (ix2 a (0 : Fin 1))
      = Ideal.rsqrt (Cert.MlpSpec.var Cert.MlpSpec.c128 (fun k => val_main_v104 (F := Ideal) x0 x1 x2 x3 x4 x13 x14 (ix2 a k)) + Cert.MlpSpec.eps) := by
  rw [val_main_v120_apply, val_main_v119_apply, c_var1, val_main_v118_apply, val_main_cst_22_apply]
  rfl

/-- The first normalisation. -/
theorem c_ln1 (k : Fin 128) :
    val_main_v128 (F := Ideal) x0 x1 x2 x3 x4 x13 x14 x15 x16 (ix2 a k)
      = Cert.MlpSpec.ln Cert.MlpSpec.c128 (fun k => val_main_v104 (F := Ideal) x0 x1 x2 x3 x4 x13 x14 (ix2 a k))
          (fun k => x15 (ix1 k)) (fun k => x16 (ix1 k)) k := by
  rw [val_main_v128_apply, val_main_v125_apply, val_main_v122_apply, val_main_v117_apply, val_main_v116_apply, val_main_v121_apply,
    val_main_v124_apply, val_main_v123_apply, val_main_v127_apply, val_main_v126_apply,
    show idx_main_v116 (ix2 a k) = ix2 a (0 : Fin 1) from by idx2, show idx_main_v121 (ix2 a k) = ix2 a (0 : Fin 1) from by idx2,
    show idx_main_v123 (idx_main_v124 (ix2 a k)) = ix1 k from by idx1, show idx_main_v126 (idx_main_v127 (ix2 a k)) = ix1 k from by idx1,
    c_mean1, c_rstd1]
  rfl

/-- The clamped row times the second matrix, plus the second shift. -/
theorem c_pre2 (j : Fin 64) :
    val_main_v133 (F := Ideal) x0 x1 x2 x3 x4 x13 x14 x15 x16 x17 x18 (ix2 a j)
      = (∑ k, max (Cert.MlpSpec.ln Cert.MlpSpec.c128 (fun k => val_main_v104 (F := Ideal) x0 x1 x2 x3 x4 x13 x14 (ix2 a k))
          (fun k => x15 (ix1 k)) (fun k => x16 (ix1 k)) k) Cert.MlpSpec.zero * x17 (ix2 k j)) + x18 (ix1 j) := by
  rw [val_main_v133_apply, val_main_v130_apply, val_main_v132_apply, val_main_v131_apply]
  have el : ∀ l, lidx_main_v130 (ix2 a j) l = ix2 a l := fun l => by idx2
  have er : ∀ l, ridx_main_v130 (ix2 a j) l = ix2 l j := fun l => by idx2
  have eb : idx_main_v131 (idx_main_v132 (ix2 a j)) = ix1 j := by idx1
  simp only [el, er, eb, val_main_v129_apply, c_ln1, val_main_call1_v0_apply, val_main_call1_cst_apply]
  rfl

/-- The mean of the second row. -/
theorem c_mean2 :
    val_main_v137 (F := Ideal) x0 x1 x2 x3 x4 x13 x14 x15 x16 x17 x18 (ix2 a (0 : Fin 1))
      = Cert.MlpSpec.mean Cert.MlpSpec.c64 (fun j => val_main_v133 (F := Ideal) x0 x1 x2 x3 x4 x13 x14 x15 x16 x17 x18 (ix2 a j)) := by
  rw [val_main_v137_apply, val_main_v135_apply, val_main_v134_apply, val_main_v136_apply, val_main_cst_23_apply, val_main_cst_24_apply]
  have e : ∀ k, idx_main_v134 (idx_main_v135 (ix2 a (0 : Fin 1))) k = ix2 a k := fun k => by idx2
  simp only [e, Ideal.ofBits_def, Ideal.ofBits_zero_f32, zero_add]
  rfl

/-- The deviation of an entry of the second row from its mean. -/
theorem c_dev2 (j : Fin 64) :
    val_main_v139 (F := Ideal) x0 x1 x2 x3 x4 x13 x14 x15 x16 x17 x18 (ix2 a j)
      = val_main_v133 (F := Ideal) x0 x1 x2 x3 x4 x13 x14 x15 x16 x17 x18 (ix2 a j)
        - Cert.MlpSpec.mean Cert.MlpSpec.c64 (fun j => val_main_v133 (F := Ideal) x0 x1 x2 x3 x4 x13 x14 x15 x16 x17 x18 (ix2 a j)) := by
  rw [val_main_v139_apply, val_main_v138_apply, show idx_main_v138 (ix2 a j) = ix2 a (0 : Fin 1) from by idx2, c_mean2]
  rfl

/-- The variance of the second row. -/
theorem c_var2 :
    val_main_v144 (F := Ideal) x0 x1 x2 x3 x4 x13 x14 x15 x16 x17 x18 (ix2 a (0 : Fin 1))
      = Cert.MlpSpec.var Cert.MlpSpec.c64 (fun j => val_main_v133 (F := Ideal) x0 x1 x2 x3 x4 x13 x14 x15 x16 x17 x18 (ix2 a j)) := by
  rw [val_main_v144_apply, val_main_v142_apply, val_main_v141_apply, val_main_v143_apply, val_main_cst_25_apply, val_main_cst_26_apply]
  have e : ∀ k, idx_main_v141 (idx_main_v142 (ix2 a (0 : Fin 1))) k = ix2 a k := fun k => by idx2
  simp only [e, val_main_v140_apply, c_dev2, Ideal.ofBits_def, Ideal.ofBits_zero_f32, zero_add]
  rfl

/-- The reciprocal root of the second variance plus the small constant. -/
theorem c_rstd2 :
    val_main_v149 (F := Ideal) x0 x1 x2 x3 x4 x13 x14 x15 x16 x17 x18 (ix2 a (0 : Fin 1))
      = Ideal.rsqrt (Cert.MlpSpec.var Cert.MlpSpec.c64 (fun j => val_main_v133 (F := Ideal) x0 x1 x2 x3 x4 x13 x14 x15 x16 x17 x18 (ix2 a j)) + Cert.MlpSpec.eps) := by
  rw [val_main_v149_apply, val_main_v148_apply, c_var2, val_main_v147_apply, val_main_cst_27_apply]
  rfl

/-- The second normalisation. -/
theorem c_ln2 (j : Fin 64) :
    val_main_v157 (F := Ideal) x0 x1 x2 x3 x4 x13 x14 x15 x16 x17 x18 x19 x20 (ix2 a j)
      = Cert.MlpSpec.ln Cert.MlpSpec.c64 (fun j => val_main_v133 (F := Ideal) x0 x1 x2 x3 x4 x13 x14 x15 x16 x17 x18 (ix2 a j))
          (fun j => x19 (ix1 j)) (fun j => x20 (ix1 j)) j := by
  rw [val_main_v157_apply, val_main_v154_apply, val_main_v151_apply, val_main_v146_apply, val_main_v145_apply, val_main_v150_apply,
    val_main_v153_apply, val_main_v152_apply, val_main_v156_apply, val_main_v155_apply,
    show idx_main_v145 (ix2 a j) = ix2 a (0 : Fin 1) from by idx2, show idx_main_v150 (ix2 a j) = ix2 a (0 : Fin 1) from by idx2,
    show idx_main_v152 (idx_main_v153 (ix2 a j)) = ix1 j from by idx1, show idx_main_v155 (idx_main_v156 (ix2 a j)) = ix1 j from by idx1,
    c_mean2, c_rstd2]
  rfl

/-- The code side of the reference is the perceptron of the specification, row by row. -/
theorem code_out (j : Fin 64) :
    val_main_v157 (F := Ideal) x0 x1 x2 x3 x4 x13 x14 x15 x16 x17 x18 x19 x20 (ix2 a j)
      = Cert.MlpSpec.mlp (fun k => x4 (ix2 a k)) (fun k => val_main_v41 (F := Ideal) x0 x1 x2 x3 (ix2 a k))
          (fun k j => x13 (ix2 k j)) (fun k => x14 (ix1 k)) (fun k => x15 (ix1 k)) (fun k => x16 (ix1 k))
          (fun k j => x17 (ix2 k j)) (fun j => x18 (ix1 j)) (fun j => x19 (ix1 j)) (fun j => x20 (ix1 j)) j := by
  rw [← Cert.MlpSpec.out_hiddenCat (fun l => val_main_v100 (F := Ideal) x0 x1 x2 x3 x4 (ix2 a l)) _ _ _ _ _ _ _ _ _ _
    (c_cat_lo x0 x1 x2 x3 x4 a) (c_cat_hi x0 x1 x2 x3 x4 a), c_ln2]
  have hh : (fun k => val_main_v104 (F := Ideal) x0 x1 x2 x3 x4 x13 x14 (ix2 a k))
      = Cert.MlpSpec.hiddenCat (fun l => val_main_v100 (F := Ideal) x0 x1 x2 x3 x4 (ix2 a l)) (fun l k => x13 (ix2 l k)) (fun k => x14 (ix1 k)) :=
    funext fun k => c_hidden x0 x1 x2 x3 x4 x13 x14 a k
  have hp : (fun j => val_main_v133 (F := Ideal) x0 x1 x2 x3 x4 x13 x14 x15 x16 x17 x18 (ix2 a j))
      = fun j => (∑ k, max (Cert.MlpSpec.ln Cert.MlpSpec.c128 (fun k => val_main_v104 (F := Ideal) x0 x1 x2 x3 x4 x13 x14 (ix2 a k))
          (fun k => x15 (ix1 k)) (fun k => x16 (ix1 k)) k) Cert.MlpSpec.zero * x17 (ix2 k j)) + x18 (ix1 j) :=
    funext fun j => c_pre2 x0 x1 x2 x3 x4 x13 x14 x15 x16 x17 x18 a j
  rw [hp, hh]
  rfl

end Code

end Cert.RefMlp

end
-- ==== Proof.lean ====
/-
  The perceptron-with-layer-normalisation kernel against its reference, at the ideal (extended real) reading.

  Both programs first aggregate messages over the edges with the same host operations (scatter-adds of weights,
  gathers of neighbour rows, scatter-adds of the weighted rows, divisions); then each applies, to the provider rows and
  to the code rows, a two-layer perceptron with layer normalisation after each layer. The reference concatenates the
  embedding row and the message row and multiplies by the whole 256 × 128 first matrix; the kernel multiplies the two
  rows by the two 128-row halves of that matrix and adds. A sum over 256 indices is the sum over the first 128 plus the
  sum over the last 128 — in any commutative monoid, so for extended reals too, and the precondition is not needed.
  Every other operation is the same on both sides (a change of float format is the identity at this reading).

  * the three frames: the generated frame certificates of the two kernel programs, and the reference's generated run
    with its results dropped;
  * the idealization changed no operation, so there is nothing to preserve;
  * the value claim: both result arrays of both programs are, row by row, the perceptron of Spec of the argument rows
    and the shared aggregated messages (KernelValue for the kernel program, RefMlp for the reference).
-/
import proofs.«178970_j15917148799744_1_alg».proof.Defs
import proofs.«178970_j15917148799744_1_alg».proof.Proof.Gen.Kernel
import proofs.«178970_j15917148799744_1_alg».proof.Proof.Gen.Kernel.Skeleton
import proofs.«178970_j15917148799744_1_alg».proof.Proof.Gen.Kernel.Launch
import proofs.«178970_j15917148799744_1_alg».proof.Proof.Gen.Kernel.Points
import proofs.«178970_j15917148799744_1_alg».proof.Proof.Gen.Kernel.Frame
import proofs.«178970_j15917148799744_1_alg».proof.Proof.Gen.KernelIdeal
import proofs.«178970_j15917148799744_1_alg».proof.Proof.Gen.KernelIdeal.Skeleton
import proofs.«178970_j15917148799744_1_alg».proof.Proof.Gen.KernelIdeal.Launch
import proofs.«178970_j15917148799744_1_alg».proof.Proof.Gen.KernelIdeal.Points
import proofs.«178970_j15917148799744_1_alg».proof.Proof.Gen.KernelIdeal.Frame
import proofs.«178970_j15917148799744_1_alg».proof.Proof.Gen.ReferenceIdeal
import proofs.«178970_j15917148799744_1_alg».proof.Proof.Gen.ReferenceIdeal.Run
import proofs.«178970_j15917148799744_1_alg».proof.Proof.Gen.ReferenceIdeal.Read
import proofs.«178970_j15917148799744_1_alg».proof.Proof.Gen.Pre_finite_inputs
import proofs.«178970_j15917148799744_1_alg».proof.Proof.KernelRun
import proofs.«178970_j15917148799744_1_alg».proof.Proof.KernelValue
import proofs.«178970_j15917148799744_1_alg».proof.Proof.RefMlp
import Idealize.ShloMosaic.Adequacy
import Idealize.ShloMosaic.Init

set_option maxRecDepth 16384

noncomputable section

namespace Cert.Proof

open Idealize.ShloMosaic Idealize.SL.Sem Idealize.ShloMosaic.ValueIdx

/-- The word-level kernel program runs and leaves its arguments unchanged. -/
theorem frame_kernel : Cert.frame_Kernel :=
  fun m ρ _ => Cert.Kernel.Gen.frame m ρ

/-- The idealized kernel program runs and leaves its arguments unchanged. -/
theorem frame_kernelIdeal : Cert.frame_KernelIdeal :=
  fun m ρ _ => Cert.KernelIdeal.Gen.frame m ρ

/-- The idealized reference runs and leaves its arguments unchanged: its run with the two results dropped. -/
theorem frame_reference : Cert.frame_ReferenceIdeal :=
  fun m ρ _ => (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both idealized programs end with the same two result arrays: row by row the
    perceptron of the embedding row and the aggregated message row. -/
theorem algebraic : Cert.algebraic_KernelIdeal_ReferenceIdeal := by
  intro m ρ m' ρ' _ hagree
  refine ⟨fun c => Cert.KernelIdeal.KernelValue.provOut m c, fun c => Cert.KernelIdeal.KernelValue.codeOut m c, ?_, ?_⟩
  · exact (θ_run Cert.KernelIdeal.defs _ _).mono
      (fun r h c => ⟨(h c).1.trans (Cert.KernelIdeal.KernelValue.out0 m ρ c), (h c).2.1.trans (Cert.KernelIdeal.KernelValue.out1 m ρ c), (h c).2.2⟩)
      (Cert.KernelIdeal.Run.run_values (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨a0, a1, a2, a3, a4, a5, a6, a7, a8, a9, a10, a11, a12, -⟩ := hagree c
      rw [Cert.ReferenceIdeal.Read.val_main_v99_eq, a0, a1, a2, a3, a4, a5, a6, a7, a8, a9, a10, a11, a12]
      funext i
      obtain ⟨a, j, rfl⟩ : ∃ (a : Fin 100000) (j : Fin 64), i = (ix2 a j : Cert.ReferenceIdeal.S100000x64.Idx) := ⟨i 0, i 1, eq_ix2 i⟩
      exact Cert.RefMlp.provider_out _ _ _ _ _ _ _ _ _ _ _ _ _ a j
    · obtain ⟨a0, a1, a2, a3, a4, -, -, -, -, -, -, -, -, a13, a14, a15, a16, a17, a18, a19, a20⟩ := hagree c
      rw [Cert.ReferenceIdeal.Read.val_main_v157_eq, a0, a1, a2, a3, a4, a13, a14, a15, a16, a17, a18, a19, a20]
      funext i
      obtain ⟨a, j, rfl⟩ : ∃ (a : Fin 20000) (j : Fin 64), i = (ix2 a j : Cert.ReferenceIdeal.S20000x64.Idx) := ⟨i 0, i 1, eq_ix2 i⟩
      exact Cert.RefMlp.code_out _ _ _ _ _ _ _ _ _ _ _ _ _ a j

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
